-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x2048 : Shape := ⟨3, ![2048, 16, 2048]⟩
abbrev S11x16 : Shape := ⟨2, ![11, 16]⟩
abbrev S11 : Shape := ⟨1, ![11]⟩
abbrev S6x11 : Shape := ⟨2, ![6, 11]⟩
abbrev S6 : Shape := ⟨1, ![6]⟩
abbrev S11x6 : Shape := ⟨2, ![11, 6]⟩
abbrev S16x11 : Shape := ⟨2, ![16, 11]⟩
abbrev S16 : Shape := ⟨1, ![16]⟩
abbrev S_ : Shape := ⟨0, ![]⟩

class Facts : Prop where
  bcast_S_S2048x16x2048 : S_.BroadcastsInDim S2048x16x2048 (![] : Fin 0 → Fin S2048x16x2048.rank)
  reducesTo_S2048x16x2048_S_d0_1_2 : S2048x16x2048.ReducesTo [0, 1, 2] S_
  h_S_ : 0 < S_.numel
  bcast_S_S11x16 : S_.BroadcastsInDim S11x16 (![] : Fin 0 → Fin S11x16.rank)
  reducesTo_S11x16_S_d0_1 : S11x16.ReducesTo [0, 1] S_
  bcast_S_S11 : S_.BroadcastsInDim S11 (![] : Fin 0 → Fin S11.rank)
  reducesTo_S11_S_d0 : S11.ReducesTo [0] S_
  bcast_S_S6x11 : S_.BroadcastsInDim S6x11 (![] : Fin 0 → Fin S6x11.rank)
  reducesTo_S6x11_S_d0_1 : S6x11.ReducesTo [0, 1] S_
  bcast_S_S6 : S_.BroadcastsInDim S6 (![] : Fin 0 → Fin S6.rank)
  reducesTo_S6_S_d0 : S6.ReducesTo [0] S_
  bcast_S_S11x6 : S_.BroadcastsInDim S11x6 (![] : Fin 0 → Fin S11x6.rank)
  reducesTo_S11x6_S_d0_1 : S11x6.ReducesTo [0, 1] S_
  bcast_S_S16x11 : S_.BroadcastsInDim S16x11 (![] : Fin 0 → Fin S16x11.rank)
  reducesTo_S16x11_S_d0_1 : S16x11.ReducesTo [0, 1] S_
  bcast_S_S16 : S_.BroadcastsInDim S16 (![] : Fin 0 → Fin S16.rank)
  reducesTo_S16_S_d0 : S16.ReducesTo [0] S_

variable [Facts]

def fn_part5 {F : FTy → Type} [FloatOps F] (main_v83 : IVec S_ 1) (main_v84 : FVec F S16 .f32) (main_cst_32 : FVec F S_ .f32) : IVec S_ 1 :=
  let main_v85 : FVec F S16 .f32 := broadcastInDim S16 ![] bcast_S_S16 main_cst_32
  let main_v86 : IVec S16 1 := cmpf .olt main_v84 main_v85
  let main_c_33 : IVec S_ 1 := constantI S_ 1 1#1
  let main_v87 : IVec S_ 1 := (fun x v => Host.reduce IntOp.andi x v reducesTo_S16_S_d0 h_S_) main_v86 main_c_33
  let main_v88 : IVec S_ 1 := andi main_v83 main_v87
  main_v88

def fn_part4 {F : FTy → Type} [FloatOps F] (main_arg14 : FVec F S16x11 .f32) (main_arg15 : FVec F S16 .f32) (main_arg16 : FVec F S16 .f32) (main_arg17 : FVec F S16 .f32) (main_v63 : IVec S_ 1) (main_v67 : IVec S_ 1) : IVec S_ 1 :=
  let main_v68 : IVec S_ 1 := andi main_v63 main_v67
  let main_v69 : FVec F S16x11 .f32 := Host.absf main_arg14
  let main_cst_26 : FVec F S_ .f32 := constant S_ .f32 0x7F800000#32
  let main_v70 : FVec F S16x11 .f32 := broadcastInDim S16x11 ![] bcast_S_S16x11 main_cst_26
  let main_v71 : IVec S16x11 1 := cmpf .olt main_v69 main_v70
  let main_c_27 : IVec S_ 1 := constantI S_ 1 1#1
  let main_v72 : IVec S_ 1 := (fun x v => Host.reduce IntOp.andi x v reducesTo_S16x11_S_d0_1 h_S_) main_v71 main_c_27
  let main_v73 : IVec S_ 1 := andi main_v68 main_v72
  let main_v74 : FVec F S16 .f32 := Host.absf main_arg15
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S16 .f32 := Host.absf main_arg16
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16 .f32 := Host.absf main_arg17
  let main_cst_32 : FVec F S_ .f32 := constant S_ .f32 0x7F800000#32
  fn_part5 (F := F) main_v83 main_v84 main_cst_32

def fn_part3 {F : FTy → Type} [FloatOps F] (main_arg11 : FVec F S11 .f32) (main_arg12 : FVec F S11 .f32) (main_arg13 : FVec F S11 .f32) (main_arg14 : FVec F S16x11 .f32) (main_arg15 : FVec F S16 .f32) (main_arg16 : FVec F S16 .f32) (main_arg17 : FVec F S16 .f32) (main_v48 : IVec S_ 1) (main_v49 : FVec F S11x6 .f32) (main_v50 : FVec F S11x6 .f32) : IVec S_ 1 :=
  let main_v51 : IVec S11x6 1 := cmpf .olt main_v49 main_v50
  let main_c_19 : IVec S_ 1 := constantI S_ 1 1#1
  let main_v52 : IVec S_ 1 := (fun x v => Host.reduce IntOp.andi x v reducesTo_S11x6_S_d0_1 h_S_) main_v51 main_c_19
  let main_v53 : IVec S_ 1 := andi main_v48 main_v52
  let main_v54 : FVec F S11 .f32 := Host.absf main_arg11
  let main_cst_20 : FVec F S_ .f32 := constant S_ .f32 0x7F800000#32
  let main_v55 : FVec F S11 .f32 := broadcastInDim S11 ![] bcast_S_S11 main_cst_20
  let main_v56 : IVec S11 1 := cmpf .olt main_v54 main_v55
  let main_c_21 : IVec S_ 1 := constantI S_ 1 1#1
  let main_v57 : IVec S_ 1 := (fun x v => Host.reduce IntOp.andi x v reducesTo_S11_S_d0 h_S_) main_v56 main_c_21
  let main_v58 : IVec S_ 1 := andi main_v53 main_v57
  let main_v59 : FVec F S11 .f32 := Host.absf main_arg12
  let main_cst_22 : FVec F S_ .f32 := constant S_ .f32 0x7F800000#32
  let main_v60 : FVec F S11 .f32 := broadcastInDim S11 ![] bcast_S_S11 main_cst_22
  let main_v61 : IVec S11 1 := cmpf .olt main_v59 main_v60
  let main_c_23 : IVec S_ 1 := constantI S_ 1 1#1
  let main_v62 : IVec S_ 1 := (fun x v => Host.reduce IntOp.andi x v reducesTo_S11_S_d0 h_S_) main_v61 main_c_23
  let main_v63 : IVec S_ 1 := andi main_v58 main_v62
  let main_v64 : FVec F S11 .f32 := Host.absf main_arg13
  let main_cst_24 : FVec F S_ .f32 := constant S_ .f32 0x7F800000#32
  let main_v65 : FVec F S11 .f32 := broadcastInDim S11 ![] bcast_S_S11 main_cst_24
  let main_v66 : IVec S11 1 := cmpf .olt main_v64 main_v65
  let main_c_25 : IVec S_ 1 := constantI S_ 1 1#1
  let main_v67 : IVec S_ 1 := (fun x v => Host.reduce IntOp.andi x v reducesTo_S11_S_d0 h_S_) main_v66 main_c_25
  fn_part4 (F := F) main_arg14 main_arg15 main_arg16 main_arg17 main_v63 main_v67

def fn_part2 {F : FTy → Type} [FloatOps F] (main_arg7 : FVec F S6 .f32) (main_arg8 : FVec F S6 .f32) (main_arg9 : FVec F S6 .f32) (main_arg10 : FVec F S11x6 .f32) (main_arg11 : FVec F S11 .f32) (main_arg12 : FVec F S11 .f32) (main_arg13 : FVec F S11 .f32) (main_arg14 : FVec F S16x11 .f32) (main_arg15 : FVec F S16 .f32) (main_arg16 : FVec F S16 .f32) (main_arg17 : FVec F S16 .f32) (main_v33 : IVec S_ 1) : IVec S_ 1 :=
  let main_v34 : FVec F S6 .f32 := Host.absf main_arg7
  let main_cst_12 : FVec F S_ .f32 := constant S_ .f32 0x7F800000#32
  let main_v35 : FVec F S6 .f32 := broadcastInDim S6 ![] bcast_S_S6 main_cst_12
  let main_v36 : IVec S6 1 := cmpf .olt main_v34 main_v35
  let main_c_13 : IVec S_ 1 := constantI S_ 1 1#1
  let main_v37 : IVec S_ 1 := (fun x v => Host.reduce IntOp.andi x v reducesTo_S6_S_d0 h_S_) main_v36 main_c_13
  let main_v38 : IVec S_ 1 := andi main_v33 main_v37
  let main_v39 : FVec F S6 .f32 := Host.absf main_arg8
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  let main_v44 : FVec F S6 .f32 := Host.absf main_arg9
  let main_cst_16 : FVec F S_ .f32 := constant S_ .f32 0x7F800000#32
  let main_v45 : FVec F S6 .f32 := broadcastInDim S6 ![] bcast_S_S6 main_cst_16
  let main_v46 : IVec S6 1 := cmpf .olt main_v44 main_v45
  let main_c_17 : IVec S_ 1 := constantI S_ 1 1#1
  let main_v47 : IVec S_ 1 := (fun x v => Host.reduce IntOp.andi x v reducesTo_S6_S_d0 h_S_) main_v46 main_c_17
  let main_v48 : IVec S_ 1 := andi main_v43 main_v47
  let main_v49 : FVec F S11x6 .f32 := Host.absf main_arg10
  let main_cst_18 : FVec F S_ .f32 := constant S_ .f32 0x7F800000#32
  let main_v50 : FVec F S11x6 .f32 := broadcastInDim S11x6 ![] bcast_S_S11x6 main_cst_18
  fn_part3 (F := F) main_arg11 main_arg12 main_arg13 main_arg14 main_arg15 main_arg16 main_arg17 main_v48 main_v49 main_v50

def fn_part1 {F : FTy → Type} [FloatOps F] (main_arg4 : FVec F S11 .f32) (main_arg5 : FVec F S11 .f32) (main_arg6 : FVec F S6x11 .f32) (main_arg7 : FVec F S6 .f32) (main_arg8 : FVec F S6 .f32) (main_arg9 : FVec F S6 .f32) (main_arg10 : FVec F S11x6 .f32) (main_arg11 : FVec F S11 .f32) (main_arg12 : FVec F S11 .f32) (main_arg13 : FVec F S11 .f32) (main_arg14 : FVec F S16x11 .f32) (main_arg15 : FVec F S16 .f32) (main_arg16 : FVec F S16 .f32) (main_arg17 : FVec F S16 .f32) (main_v13 : IVec S_ 1) (main_v16 : IVec S11 1) : IVec S_ 1 :=
  let main_c_5 : IVec S_ 1 := constantI S_ 1 1#1
  let main_v17 : IVec S_ 1 := (fun x v => Host.reduce IntOp.andi x v reducesTo_S11_S_d0 h_S_) main_v16 main_c_5
  let main_v18 : IVec S_ 1 := andi main_v13 main_v17
  let main_v19 : FVec F S11 .f32 := Host.absf main_arg4
  let main_cst_6 : FVec F S_ .f32 := constant S_ .f32 0x7F800000#32
  let main_v20 : FVec F S11 .f32 := broadcastInDim S11 ![] bcast_S_S11 main_cst_6
  let main_v21 : IVec S11 1 := cmpf .olt main_v19 main_v20
  let main_c_7 : IVec S_ 1 := constantI S_ 1 1#1
  let main_v22 : IVec S_ 1 := (fun x v => Host.reduce IntOp.andi x v reducesTo_S11_S_d0 h_S_) main_v21 main_c_7
  let main_v23 : IVec S_ 1 := andi main_v18 main_v22
  let main_v24 : FVec F S11 .f32 := Host.absf main_arg5
  let main_cst_8 : FVec F S_ .f32 := constant S_ .f32 0x7F800000#32
  let main_v25 : FVec F S11 .f32 := broadcastInDim S11 ![] bcast_S_S11 main_cst_8
  let main_v26 : IVec S11 1 := cmpf .olt main_v24 main_v25
  let main_c_9 : IVec S_ 1 := constantI S_ 1 1#1
  let main_v27 : IVec S_ 1 := (fun x v => Host.reduce IntOp.andi x v reducesTo_S11_S_d0 h_S_) main_v26 main_c_9
  let main_v28 : IVec S_ 1 := andi main_v23 main_v27
  let main_v29 : FVec F S6x11 .f32 := Host.absf main_arg6
  let main_cst_10 : FVec F S_ .f32 := constant S_ .f32 0x7F800000#32
  let main_v30 : FVec F S6x11 .f32 := broadcastInDim S6x11 ![] bcast_S_S6x11 main_cst_10
  let main_v31 : IVec S6x11 1 := cmpf .olt main_v29 main_v30
  let main_c_11 : IVec S_ 1 := constantI S_ 1 1#1
  let main_v32 : IVec S_ 1 := (fun x v => Host.reduce IntOp.andi x v reducesTo_S6x11_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S2048x16x2048 .f32) (main_arg1 : FVec F S2048x16x2048 .f32) (main_arg2 : FVec F S11x16 .f32) (main_arg3 : FVec F S11 .f32) (main_arg4 : FVec F S11 .f32) (main_arg5 : FVec F S11 .f32) (main_arg6 : FVec F S6x11 .f32) (main_arg7 : FVec F S6 .f32) (main_arg8 : FVec F S6 .f32) (main_arg9 : FVec F S6 .f32) (main_arg10 : FVec F S11x6 .f32) (main_arg11 : FVec F S11 .f32) (main_arg12 : FVec F S11 .f32) (main_arg13 : FVec F S11 .f32) (main_arg14 : FVec F S16x11 .f32) (main_arg15 : FVec F S16 .f32) (main_arg16 : FVec F S16 .f32) (main_arg17 : FVec F S16 .f32) : IVec S_ 1 :=
  let main_v0 : FVec F S2048x16x2048 .f32 := Host.absf main_arg0
  let main_cst : FVec F S_ .f32 := constant S_ .f32 0x7F800000#32
  let main_v1 : FVec F S2048x16x2048 .f32 := broadcastInDim S2048x16x2048 ![] bcast_S_S2048x16x2048 main_cst
  let main_v2 : IVec S2048x16x2048 1 := cmpf .olt main_v0 main_v1
  let main_c : IVec S_ 1 := constantI S_ 1 1#1
  let main_v3 : IVec S_ 1 := (fun x v => Host.reduce IntOp.andi x v reducesTo_S2048x16x2048_S_d0_1_2 h_S_) main_v2 main_c
  let main_v4 : FVec F S2048x16x2048 .f32 := Host.absf main_arg1
  let main_cst_0 : FVec F S_ .f32 := constant S_ .f32 0x7F800000#32
  let main_v5 : FVec F S2048x16x2048 .f32 := broadcastInDim S2048x16x2048 ![] bcast_S_S2048x16x2048 main_cst_0
  let main_v6 : IVec S2048x16x2048 1 := cmpf .olt main_v4 main_v5
  let main_c_1 : IVec S_ 1 := constantI S_ 1 1#1
  let main_v7 : IVec S_ 1 := (fun x v => Host.reduce IntOp.andi x v reducesTo_S2048x16x2048_S_d0_1_2 h_S_) main_v6 main_c_1
  let main_v8 : IVec S_ 1 := andi main_v3 main_v7
  let main_v9 : FVec F S11x16 .f32 := Host.absf main_arg2
  let main_cst_2 : FVec F S_ .f32 := constant S_ .f32 0x7F800000#32
  let main_v10 : FVec F S11x16 .f32 := broadcastInDim S11x16 ![] bcast_S_S11x16 main_cst_2
  let main_v11 : IVec S11x16 1 := cmpf .olt main_v9 main_v10
  let main_c_3 : IVec S_ 1 := constantI S_ 1 1#1
  let main_v12 : IVec S_ 1 := (fun x v => Host.reduce IntOp.andi x v reducesTo_S11x16_S_d0_1 h_S_) main_v11 main_c_3
  let main_v13 : IVec S_ 1 := andi main_v8 main_v12
  let main_v14 : FVec F S11 .f32 := Host.absf main_arg3
  let main_cst_4 : FVec F S_ .f32 := constant S_ .f32 0x7F800000#32
  let main_v15 : FVec F S11 .f32 := broadcastInDim S11 ![] bcast_S_S11 main_cst_4
  let main_v16 : IVec S11 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S2048x16x2048 : Shape := ⟨3, ![2048, 16, 2048]⟩
abbrev S11x16 : Shape := ⟨2, ![11, 16]⟩
abbrev S11 : Shape := ⟨1, ![11]⟩
abbrev S6x11 : Shape := ⟨2, ![6, 11]⟩
abbrev S6 : Shape := ⟨1, ![6]⟩
abbrev S11x6 : Shape := ⟨2, ![11, 6]⟩
abbrev S16x11 : Shape := ⟨2, ![16, 11]⟩
abbrev S16 : Shape := ⟨1, ![16]⟩
abbrev S256x16x256 : Shape := ⟨3, ![256, 16, 256]⟩
abbrev S256x256x16 : Shape := ⟨3, ![256, 256, 16]⟩
abbrev S65536x16 : Shape := ⟨2, ![65536, 16]⟩
abbrev S65536x11 : Shape := ⟨2, ![65536, 11]⟩
abbrev S1x11 : Shape := ⟨2, ![1, 11]⟩
abbrev S256x256x11 : Shape := ⟨3, ![256, 256, 11]⟩
abbrev S256x256 : Shape := ⟨2, ![256, 256]⟩
abbrev S256x256x1 : Shape := ⟨3, ![256, 256, 1]⟩
abbrev S1x1x11 : Shape := ⟨3, ![1, 1, 11]⟩
abbrev S65536x6 : Shape := ⟨2, ![65536, 6]⟩
abbrev S1x6 : Shape := ⟨2, ![1, 6]⟩
abbrev S256x256x6 : Shape := ⟨3, ![256, 256, 6]⟩
abbrev S1x1x6 : Shape := ⟨3, ![1, 1, 6]⟩
abbrev S1x16 : Shape := ⟨2, ![1, 16]⟩
abbrev S1x1x16 : Shape := ⟨3, ![1, 1, 16]⟩

abbrev nBuf : Space → Nat
  | .hbm => 19
  | .vmem => 22
  | .smem => 0
  | _ => 0

abbrev bufTy : (tb : Table) → Fin (tcTables nBuf tb) → BufTy
  | .hbm, ⟨0, _⟩ => ⟨S2048x16x2048, .f32⟩
  | .hbm, ⟨1, _⟩ => ⟨S2048x16x2048, .f32⟩
  | .hbm, ⟨2, _⟩ => ⟨S11x16, .f32⟩
  | .hbm, ⟨3, _⟩ => ⟨S11, .f32⟩
  | .hbm, ⟨4, _⟩ => ⟨S11, .f32⟩
  | .hbm, ⟨5, _⟩ => ⟨S11, .f32⟩
  | .hbm, ⟨6, _⟩ => ⟨S6x11, .f32⟩
  | .hbm, ⟨7, _⟩ => ⟨S6, .f32⟩
  | .hbm, ⟨8, _⟩ => ⟨S6, .f32⟩
  | .hbm, ⟨9, _⟩ => ⟨S6, .f32⟩
  | .hbm, ⟨10, _⟩ => ⟨S11x6, .f32⟩
  | .hbm, ⟨11, _⟩ => ⟨S11, .f32⟩
  | .hbm, ⟨12, _⟩ => ⟨S11, .f32⟩
  | .hbm, ⟨13, _⟩ => ⟨S11, .f32⟩
  | .hbm, ⟨14, _⟩ => ⟨S16x11, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S2048x16x2048, .f32⟩
  | .local _ .vmem, ⟨0, _⟩ => ⟨S256x16x256, .f32⟩
  | .local _ .vmem, ⟨1, _⟩ => ⟨S256x16x256, .f32⟩
  | .local _ .vmem, ⟨2, _⟩ => ⟨S256x16x256, .f32⟩
  | .local _ .vmem, ⟨3, _⟩ => ⟨S256x16x256, .f32⟩
  | .local _ .vmem, ⟨4, _⟩ => ⟨S11x16, .f32⟩
  | .local _ .vmem, ⟨5, _⟩ => ⟨S11, .f32⟩
  | .local _ .vmem, ⟨6, _⟩ => ⟨S11, .f32⟩
  | .local _ .vmem, ⟨7, _⟩ => ⟨S11, .f32⟩
  | .local _ .vmem, ⟨8, _⟩ => ⟨S6x11, .f32⟩
  | .local _ .vmem, ⟨9, _⟩ => ⟨S6, .f32⟩
  | .local _ .vmem, ⟨10, _⟩ => ⟨S6, .f32⟩
  | .local _ .vmem, ⟨11, _⟩ => ⟨S6, .f32⟩
  | .local _ .vmem, ⟨12, _⟩ => ⟨S11x6, .f32⟩
  | .local _ .vmem, ⟨13, _⟩ => ⟨S11, .f32⟩
  | .local _ .vmem, ⟨14, _⟩ => ⟨S11, .f32⟩
  | .local _ .vmem, ⟨15, _⟩ => ⟨S11, .f32⟩
  | .local _ .vmem, ⟨16, _⟩ => ⟨S16x11, .f32⟩
  | .local _ .vmem, ⟨17, _⟩ => ⟨S16, .f32⟩
  | .local _ .vmem, ⟨18, _⟩ => ⟨S16, .f32⟩
  | .local _ .vmem, ⟨19, _⟩ => ⟨S16, .f32⟩
  | .local _ .vmem, ⟨20, _⟩ => ⟨S256x16x256, .f32⟩
  | .local _ .vmem, ⟨21, _⟩ => ⟨S256x16x256, .f32⟩
  | _, _ => ⟨S2048x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S11x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S11 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S11 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S11 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S6x11 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S6 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S11x6 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S11 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S11 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S11 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S16x11 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S256x16x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

class Facts₀ : Prop where
  inb_S256x16x256_S256x16x256_0_0_0 : ∀ a, (![0, 0, 0] : Fin 3 → Nat) a + S256x16x256.size a ≤ S256x16x256.size a
  h_S256x16x256 : 0 < S256x16x256.numel
  transposes_S256x16x256_p0_2_1_S256x256x16 : S256x16x256.Transposes [0, 2, 1] S256x256x16
  inb_S11x16_S11x16_0_0 : ∀ a, (![0, 0] : Fin 2 → Nat) a + S11x16.size a ≤ S11x16.size a
  h_S11x16 : 0 < S11x16.numel
  inb_S11_S11_0 : ∀ a, (![0] : Fin 1 → Nat) a + S11.size a ≤ S11.size a
  h_S11 : 0 < S11.numel
  shapeCasts_S256x256x16_S65536x16 : S256x256x16.ShapeCasts S65536x16
  transposes_S11x16_p1_0_S16x11 : S11x16.Transposes [1, 0] S16x11
  shapeCasts_S11_S1x11 : S11.ShapeCasts S1x11
  broadcasts_S1x11_S65536x11 : S1x11.Broadcasts S65536x11
  shapeCasts_S65536x11_S256x256x11 : S65536x11.ShapeCasts S256x256x11
  reduces_S256x256x11_S256x256 : S256x256x11.Reduces [2] S256x256
  shapeCasts_S256x256_S256x256x1 : S256x256.ShapeCasts S256x256x1
  broadcasts_S256x256x1_S256x256x11 : S256x256x1.Broadcasts S256x256x11
  shapeCasts_S11_S1x1x11 : S11.ShapeCasts S1x1x11
  broadcasts_S1x1x11_S256x256x11 : S1x1x11.Broadcasts S256x256x11
  inb_S6x11_S6x11_0_0 : ∀ a, (![0, 0] : Fin 2 → Nat) a + S6x11.size a ≤ S6x11.size a
  h_S6x11 : 0 < S6x11.numel
  inb_S6_S6_0 : ∀ a, (![0] : Fin 1 → Nat) a + S6.size a ≤ S6.size a
  h_S6 : 0 < S6.numel
  shapeCasts_S256x256x11_S65536x11 : S256x256x11.ShapeCasts S65536x11
  transposes_S6x11_p1_0_S11x6 : S6x11.Transposes [1, 0] S11x6
  shapeCasts_S6_S1x6 : S6.ShapeCasts S1x6
  broadcasts_S1x6_S65536x6 : S1x6.Broadcasts S65536x6
  shapeCasts_S65536x6_S256x256x6 : S65536x6.ShapeCasts S256x256x6
  reduces_S256x256x6_S256x256 : S256x256x6.Reduces [2] S256x256
  broadcasts_S256x256x1_S256x256x6 : S256x256x1.Broadcasts S256x256x6
  shapeCasts_S6_S1x1x6 : S6.ShapeCasts S1x1x6
  broadcasts_S1x1x6_S256x256x6 : S1x1x6.Broadcasts S256x256x6
  inb_S11x6_S11x6_0_0 : ∀ a, (![0, 0] : Fin 2 → Nat) a + S11x6.size a ≤ S11x6.size a
  h_S11x6 : 0 < S11x6.numel
  shapeCasts_S256x256x6_S65536x6 : S256x256x6.ShapeCasts S65536x6
  transposes_S11x6_p1_0_S6x11 : S11x6.Transposes [1, 0] S6x11
  inb_S16x11_S16x11_0_0 : ∀ a, (![0, 0] : Fin 2 → Nat) a + S16x11.size a ≤ S16x11.size a
  h_S16x11 : 0 < S16x11.numel
  inb_S16_S16_0 : ∀ a, (![0] : Fin 1 → Nat) a + S16.size a ≤ S16.size a
  h_S16 : 0 < S16.numel
  transposes_S16x11_p1_0_S11x16 : S16x11.Transposes [1, 0] S11x16
  shapeCasts_S16_S1x16 : S16.ShapeCasts S1x16
  broadcasts_S1x16_S65536x16 : S1x16.Broadcasts S65536x16
  shapeCasts_S65536x16_S256x256x16 : S65536x16.ShapeCasts S256x256x16
  reduces_S256x256x16_S256x256 : S256x256x16.Reduces [2] S256x256
  broadcasts_S256x256x1_S256x256x16 : S256x256x1.Broadcasts S256x256x16
  shapeCasts_S16_S1x1x16 : S16.ShapeCasts S1x1x16
  broadcasts_S1x1x16_S256x256x16 : S1x1x16.Broadcasts S256x256x16
  transposes_S256x256x16_p0_2_1_S256x16x256 : S256x256x16.Transposes [0, 2, 1] S256x16x256
  dot_S65536x16_S16x11_S65536x11_1_0_0_1_n_n_wf : DotDims.WF S65536x16 S16x11 S65536x11 [1] [0] [0] [1] [] []
  dot_S65536x11_S11x6_S65536x6_1_0_0_1_n_n_wf : DotDims.WF S65536x11 S11x6 S65536x6 [1] [0] [0] [1] [] []
  dot_S65536x6_S6x11_S65536x11_1_0_0_1_n_n_wf : DotDims.WF S65536x6 S6x11 S65536x11 [1] [0] [0] [1] [] []
  dot_S65536x11_S11x16_S65536x16_1_0_0_1_n_n_wf : DotDims.WF S65536x11 S11x16 S65536x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16x256.size a ≤ S2048x16x2048.size a
  hwx0_0 : ∀ i : grid0.Coords, EltTy.bits .f32 = 32 ∨ (Rect.block (s := S2048x16x2048) S256x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16x256.size a ≤ S2048x16x2048.size a
  hwx0_1 : ∀ i : grid0.Coords, EltTy.bits .f32 = 32 ∨ (Rect.block (s := S2048x16x2048) S256x16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S11x16.size a ≤ S11x16.size a
  hwx0_2 : ∀ i : grid0.Coords, EltTy.bits .f32 = 32 ∨ (Rect.block (s := S11x16) S11x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S11.size a ≤ S11.size a
  hwx0_3 : ∀ i : grid0.Coords, EltTy.bits .f32 = 32 ∨ (Rect.block (s := S11) S11.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S11.size a ≤ S11.size a
  hwx0_4 : ∀ i : grid0.Coords, EltTy.bits .f32 = 32 ∨ (Rect.block (s := S11) S11.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S11.size a ≤ S11.size a
  hwx0_5 : ∀ i : grid0.Coords, EltTy.bits .f32 = 32 ∨ (Rect.block (s := S11) S11.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x11.size a ≤ S6x11.size a
  hwx0_6 : ∀ i : grid0.Coords, EltTy.bits .f32 = 32 ∨ (Rect.block (s := S6x11) S6x11.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6.size a ≤ S6.size a
  hwx0_7 : ∀ i : grid0.Coords, EltTy.bits .f32 = 32 ∨ (Rect.block (s := S6) S6.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S6.size a ≤ S6.size a
  hwx0_8 : ∀ i : grid0.Coords, EltTy.bits .f32 = 32 ∨ (Rect.block (s := S6) S6.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S6.size a ≤ S6.size a
  hwx0_9 : ∀ i : grid0.Coords, EltTy.bits .f32 = 32 ∨ (Rect.block (s := S6) S6.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S11x6.size a ≤ S11x6.size a
  hwx0_10 : ∀ i : grid0.Coords, EltTy.bits .f32 = 32 ∨ (Rect.block (s := S11x6) S11x6.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S11.size a ≤ S11.size a
  hwx0_11 : ∀ i : grid0.Coords, EltTy.bits .f32 = 32 ∨ (Rect.block (s := S11) S11.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S11.size a ≤ S11.size a
  hwx0_12 : ∀ i : grid0.Coords, EltTy.bits .f32 = 32 ∨ (Rect.block (s := S11) S11.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S11.size a ≤ S11.size a
  hwx0_13 : ∀ i : grid0.Coords, EltTy.bits .f32 = 32 ∨ (Rect.block (s := S11) S11.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S16x11.size a ≤ S16x11.size a
  hwx0_14 : ∀ i : grid0.Coords, EltTy.bits .f32 = 32 ∨ (Rect.block (s := S16x11) S16x11.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S16.size a ≤ S16.size a
  hwx0_15 : ∀ i : grid0.Coords, EltTy.bits .f32 = 32 ∨ (Rect.block (s := S16) S16.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S16.size a ≤ S16.size a
  hwx0_16 : ∀ i : grid0.Coords, EltTy.bits .f32 = 32 ∨ (Rect.block (s := S16) S16.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S16.size a ≤ S16.size a
  hwx0_17 : ∀ i : grid0.Coords, EltTy.bits .f32 = 32 ∨ (Rect.block (s := S16) S16.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x16x256.size a ≤ S2048x16x2048.size a
  hwx0_18 : ∀ i : grid0.Coords, EltTy.bits .f32 = 32 ∨ (Rect.block (s := S2048x16x2048) S256x16x256.size (cc0_transform_18 i) (hinb0_18 i)).WholeWords (EltTy.packing .f32)

variable [Facts₀]

def dot_S65536x16_S16x11_S65536x11_1_0_0_1_n_n : DotDims S65536x16 S16x11 S65536x11 where
  lhsContracting := [1]
  rhsContracting := [0]
  lhsNonContracting := [0]
  rhsNonContracting := [1]
  lhsBatch := []
  rhsBatch := []
  wf := dot_S65536x16_S16x11_S65536x11_1_0_0_1_n_n_wf
def dot_S65536x11_S11x6_S65536x6_1_0_0_1_n_n : DotDims S65536x11 S11x6 S65536x6 where
  lhsContracting := [1]
  rhsContracting := [0]
  lhsNonContracting := [0]
  rhsNonContracting := [1]
  lhsBatch := []
  rhsBatch := []
  wf := dot_S65536x11_S11x6_S65536x6_1_0_0_1_n_n_wf
def dot_S65536x6_S6x11_S65536x11_1_0_0_1_n_n : DotDims S65536x6 S6x11 S65536x11 where
  lhsContracting := [1]
  rhsContracting := [0]
  lhsNonContracting := [0]
  rhsNonContracting := [1]
  lhsBatch := []
  rhsBatch := []
  wf := dot_S65536x6_S6x11_S65536x11_1_0_0_1_n_n_wf
def dot_S65536x11_S11x16_S65536x16_1_0_0_1_n_n : DotDims S65536x11 S11x16 S65536x16 where
  lhsContracting := [1]
  rhsContracting := [0]
  lhsNonContracting := [0]
  rhsNonContracting := [1]
  lhsBatch := []
  rhsBatch := []
  wf := dot_S65536x11_S11x16_S65536x16_1_0_0_1_n_n_wf

abbrev win0_0 : Pipeline.Window sig grid0 :=
  Pipeline.Window.ofSpec (Memref.whole main_arg0) S256x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S11x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S11.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S11.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S11.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S6x11.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S6.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S6.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S6.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S11x6.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S11.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S11.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S11.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S16x11.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S16.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S16.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S16.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v0) S256x16x256.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S2048x16x2048 : Shape := ⟨3, ![2048, 16, 2048]⟩
abbrev S11x16 : Shape := ⟨2, ![11, 16]⟩
abbrev S11 : Shape := ⟨1, ![11]⟩
abbrev S6x11 : Shape := ⟨2, ![6, 11]⟩
abbrev S6 : Shape := ⟨1, ![6]⟩
abbrev S11x6 : Shape := ⟨2, ![11, 6]⟩
abbrev S16x11 : Shape := ⟨2, ![16, 11]⟩
abbrev S16 : Shape := ⟨1, ![16]⟩
abbrev S2048x2048x16 : Shape := ⟨3, ![2048, 2048, 16]⟩
abbrev S2048x2048x11 : Shape := ⟨3, ![2048, 2048, 11]⟩
abbrev S1x1x11 : Shape := ⟨3, ![1, 1, 11]⟩
abbrev S_ : Shape := ⟨0, ![]⟩
abbrev S2048x2048 : Shape := ⟨2, ![2048, 2048]⟩
abbrev S2048x2048x1 : Shape := ⟨3, ![2048, 2048, 1]⟩
abbrev S2048x2048x6 : Shape := ⟨3, ![2048, 2048, 6]⟩
abbrev S1x1x6 : Shape := ⟨3, ![1, 1, 6]⟩
abbrev S1x1x16 : Shape := ⟨3, ![1, 1, 16]⟩

abbrev nBuf : Space → Nat
  | .hbm => 165
  | .vmem => 0
  | .smem => 0
  | _ => 0

abbrev hbmTy0_0 (i : Nat) : BufTy := match i % 128 with
  | 0 => ⟨S2048x16x2048, .f32⟩
  | 1 => ⟨S2048x16x2048, .f32⟩
  | 2 => ⟨S11x16, .f32⟩
  | 3 => ⟨S11, .f32⟩
  | 4 => ⟨S11, .f32⟩
  | 5 => ⟨S11, .f32⟩
  | 6 => ⟨S6x11, .f32⟩
  | 7 => ⟨S6, .f32⟩
  | 8 => ⟨S6, .f32⟩
  | 9 => ⟨S6, .f32⟩
  | 10 => ⟨S11x6, .f32⟩
  | 11 => ⟨S11, .f32⟩
  | 12 => ⟨S11, .f32⟩
  | 13 => ⟨S11, .f32⟩
  | 14 => ⟨S16x11, .f32⟩
  | 15 => ⟨S16, .f32⟩
  | 16 => ⟨S16, .f32⟩
  | 17 => ⟨S16, .f32⟩
  | 18 => ⟨S2048x16x2048, .f32⟩
  | 19 => ⟨S2048x2048x16, .f32⟩
  | 20 => ⟨S2048x2048x11, .f32⟩
  | 21 => ⟨S1x1x11, .f32⟩
  | 22 => ⟨S2048x2048x11, .f32⟩
  | 23 => ⟨S2048x2048x11, .f32⟩
  | 24 => ⟨S_, .f32⟩
  | 25 => ⟨S2048x2048, .f32⟩
  | 26 => ⟨S2048x2048x1, .f32⟩
  | 27 => ⟨S_, .f32⟩
  | 28 => ⟨S2048x2048x1, .f32⟩
  | 29 => ⟨S2048x2048x1, .f32⟩
  | 30 => ⟨S2048x2048x11, .f32⟩
  | 31 => ⟨S2048x2048x11, .f32⟩
  | 32 => ⟨S2048x2048x11, .f32⟩
  | 33 => ⟨S_, .f32⟩
  | 34 => ⟨S2048x2048, .f32⟩
  | 35 => ⟨S2048x2048x1, .f32⟩
  | 36 => ⟨S_, .f32⟩
  | 37 => ⟨S2048x2048x1, .f32⟩
  | 38 => ⟨S2048x2048x1, .f32⟩
  | 39 => ⟨S2048x2048x11, .f32⟩
  | 40 => ⟨S2048x2048x11, .f32⟩
  | 41 => ⟨S_, .f32⟩
  | 42 => ⟨S2048x2048x1, .f32⟩
  | 43 => ⟨S2048x2048x1, .f32⟩
  | 44 => ⟨S2048x2048x1, .f32⟩
  | 45 => ⟨S2048x2048x11, .f32⟩
  | 46 => ⟨S2048x2048x11, .f32⟩
  | 47 => ⟨S1x1x11, .f32⟩
  | 48 => ⟨S2048x2048x11, .f32⟩
  | 49 => ⟨S2048x2048x11, .f32⟩
  | 50 => ⟨S1x1x11, .f32⟩
  | 51 => ⟨S2048x2048x11, .f32⟩
  | 52 => ⟨S2048x2048x11, .f32⟩
  | 53 => ⟨S_, .f32⟩
  | 54 => ⟨S2048x2048x11, .f32⟩
  | 55 => ⟨S2048x2048x11, .f32⟩
  | 56 => ⟨S2048x2048x6, .f32⟩
  | 57 => ⟨S1x1x6, .f32⟩
  | 58 => ⟨S2048x2048x6, .f32⟩
  | 59 => ⟨S2048x2048x6, .f32⟩
  | 60 => ⟨S_, .f32⟩
  | 61 => ⟨S2048x2048, .f32⟩
  | 62 => ⟨S2048x2048x1, .f32⟩
  | 63 => ⟨S_, .f32⟩
  | 64 => ⟨S2048x2048x1, .f32⟩
  | 65 => ⟨S2048x2048x1, .f32⟩
  | 66 => ⟨S2048x2048x6, .f32⟩
  | 67 => ⟨S2048x2048x6, .f32⟩
  | 68 => ⟨S2048x2048x6, .f32⟩
  | 69 => ⟨S_, .f32⟩
  | 70 => ⟨S2048x2048, .f32⟩
  | 71 => ⟨S2048x2048x1, .f32⟩
  | 72 => ⟨S_, .f32⟩
  | 73 => ⟨S2048x2048x1, .f32⟩
  | 74 => ⟨S2048x2048x1, .f32⟩
  | 75 => ⟨S2048x2048x6, .f32⟩
  | 76 => ⟨S2048x2048x6, .f32⟩
  | 77 => ⟨S_, .f32⟩
  | 78 => ⟨S2048x2048x1, .f32⟩
  | 79 => ⟨S2048x2048x1, .f32⟩
  | 80 => ⟨S2048x2048x1, .f32⟩
  | 81 => ⟨S2048x2048x6, .f32⟩
  | 82 => ⟨S2048x2048x6, .f32⟩
  | 83 => ⟨S1x1x6, .f32⟩
  | 84 => ⟨S2048x2048x6, .f32⟩
  | 85 => ⟨S2048x2048x6, .f32⟩
  | 86 => ⟨S1x1x6, .f32⟩
  | 87 => ⟨S2048x2048x6, .f32⟩
  | 88 => ⟨S2048x2048x6, .f32⟩
  | 89 => ⟨S_, .f32⟩
  | 90 => ⟨S2048x2048x6, .f32⟩
  | 91 => ⟨S2048x2048x6, .f32⟩
  | 92 => ⟨S2048x2048x11, .f32⟩
  | 93 => ⟨S1x1x11, .f32⟩
  | 94 => ⟨S2048x2048x11, .f32⟩
  | 95 => ⟨S2048x2048x11, .f32⟩
  | 96 => ⟨S_, .f32⟩
  | 97 => ⟨S2048x2048, .f32⟩
  | 98 => ⟨S2048x2048x1, .f32⟩
  | 99 => ⟨S_, .f32⟩
  | 100 => ⟨S2048x2048x1, .f32⟩
  | 101 => ⟨S2048x2048x1, .f32⟩
  | 102 => ⟨S2048x2048x11, .f32⟩
  | 103 => ⟨S2048x2048x11, .f32⟩
  | 104 => ⟨S2048x2048x11, .f32⟩
  | 105 => ⟨S_, .f32⟩
  | 106 => ⟨S2048x2048, .f32⟩
  | 107 => ⟨S2048x2048x1, .f32⟩
  | 108 => ⟨S_, .f32⟩
  | 109 => ⟨S2048x2048x1, .f32⟩
  | 110 => ⟨S2048x2048x1, .f32⟩
  | 111 => ⟨S2048x2048x11, .f32⟩
  | 112 => ⟨S2048x2048x11, .f32⟩
  | 113 => ⟨S_, .f32⟩
  | 114 => ⟨S2048x2048x1, .f32⟩
  | 115 => ⟨S2048x2048x1, .f32⟩
  | 116 => ⟨S2048x2048x1, .f32⟩
  | 117 => ⟨S2048x2048x11, .f32⟩
  | 118 => ⟨S2048x2048x11, .f32⟩
  | 119 => ⟨S1x1x11, .f32⟩
  | 120 => ⟨S2048x2048x11, .f32⟩
  | 121 => ⟨S2048x2048x11, .f32⟩
  | 122 => ⟨S1x1x11, .f32⟩
  | 123 => ⟨S2048x2048x11, .f32⟩
  | 124 => ⟨S2048x2048x11, .f32⟩
  | 125 => ⟨S_, .f32⟩
  | 126 => ⟨S2048x2048x11, .f32⟩
  | 127 => ⟨S2048x2048x11, .f32⟩
  | _ => ⟨S2048x16x2048, .f32⟩

abbrev hbmTy0_1 (i : Nat) : BufTy := match i % 128 with
  | 0 => ⟨S2048x2048x16, .f32⟩
  | 1 => ⟨S1x1x16, .f32⟩
  | 2 => ⟨S2048x2048x16, .f32⟩
  | 3 => ⟨S2048x2048x16, .f32⟩
  | 4 => ⟨S_, .f32⟩
  | 5 => ⟨S2048x2048, .f32⟩
  | 6 => ⟨S2048x2048x1, .f32⟩
  | 7 => ⟨S_, .f32⟩
  | 8 => ⟨S2048x2048x1, .f32⟩
  | 9 => ⟨S2048x2048x1, .f32⟩
  | 10 => ⟨S2048x2048x16, .f32⟩
  | 11 => ⟨S2048x2048x16, .f32⟩
  | 12 => ⟨S2048x2048x16, .f32⟩
  | 13 => ⟨S_, .f32⟩
  | 14 => ⟨S2048x2048, .f32⟩
  | 15 => ⟨S2048x2048x1, .f32⟩
  | 16 => ⟨S_, .f32⟩
  | 17 => ⟨S2048x2048x1, .f32⟩
  | 18 => ⟨S2048x2048x1, .f32⟩
  | 19 => ⟨S2048x2048x16, .f32⟩
  | 20 => ⟨S2048x2048x16, .f32⟩
  | 21 => ⟨S_, .f32⟩
  | 22 => ⟨S2048x2048x1, .f32⟩
  | 23 => ⟨S2048x2048x1, .f32⟩
  | 24 => ⟨S2048x2048x1, .f32⟩
  | 25 => ⟨S2048x2048x16, .f32⟩
  | 26 => ⟨S2048x2048x16, .f32⟩
  | 27 => ⟨S1x1x16, .f32⟩
  | 28 => ⟨S2048x2048x16, .f32⟩
  | 29 => ⟨S2048x2048x16, .f32⟩
  | 30 => ⟨S1x1x16, .f32⟩
  | 31 => ⟨S2048x2048x16, .f32⟩
  | 32 => ⟨S2048x2048x16, .f32⟩
  | 33 => ⟨S_, .f32⟩
  | 34 => ⟨S2048x2048x16, .f32⟩
  | 35 => ⟨S2048x2048x16, .f32⟩
  | 36 => ⟨S2048x16x2048, .f32⟩
  | _ => ⟨S2048x16x2048, .f32⟩

abbrev hbmTy (i : Nat) : BufTy := match i / 128 with
  | 0 => hbmTy0_0 i
  | 1 => hbmTy0_1 i
  | _ => ⟨S2048x16x2048, .f32⟩

abbrev bufTy : (tb : Table) → Fin (tcTables nBuf tb) → BufTy
  | .hbm, ⟨i, _⟩ => hbmTy i
  | _, _ => ⟨S2048x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call0_cst : Ref sig .tc := ⟨.hbm, 53, rfl⟩
abbrev main_call0_v0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call1_cst : Ref sig .tc := ⟨.hbm, 89, rfl⟩
abbrev main_call1_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_9 : Ref sig .tc := ⟨.hbm, 96, rfl⟩
abbrev main_v64 : Ref sig .tc := ⟨.hbm, 97, rfl⟩
abbrev main_v65 : Ref sig .tc := ⟨.hbm, 98, rfl⟩
abbrev main_cst_10 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_11 : Ref sig .tc := ⟨.hbm, 105, rfl⟩
abbrev main_v71 : Ref sig .tc := ⟨.hbm, 106, rfl⟩
abbrev main_v72 : Ref sig .tc := ⟨.hbm, 107, rfl⟩
abbrev main_cst_12 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_13 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call2_cst : Ref sig .tc := ⟨.hbm, 125, rfl⟩
abbrev main_call2_v0 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_14 : Ref sig .tc := ⟨.hbm, 132, rfl⟩
abbrev main_v93 : Ref sig .tc := ⟨.hbm, 133, rfl⟩
abbrev main_v94 : Ref sig .tc := ⟨.hbm, 134, rfl⟩
abbrev main_cst_15 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_16 : Ref sig .tc := ⟨.hbm, 141, rfl⟩
abbrev main_v100 : Ref sig .tc := ⟨.hbm, 142, rfl⟩
abbrev main_v101 : Ref sig .tc := ⟨.hbm, 143, rfl⟩
abbrev main_cst_17 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_18 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_call3_cst : Ref sig .tc := ⟨.hbm, 161, rfl⟩
abbrev main_call3_v0 : Ref sig .tc := ⟨.hbm, 162, rfl⟩
abbrev main_v117 : Ref sig .tc := ⟨.hbm, 163, rfl⟩
abbrev main_v118 : Ref sig .tc := ⟨.hbm, 164, rfl⟩

abbrev nD : Nat := 1
abbrev τ : Topo := Topo.v7x

variable {F : FTy → Type} [FloatOps F]

class Facts₀ : Prop where
  transposes_S2048x16x2048_S2048x2048x16_0_2_1 : S2048x16x2048.Transposes [0, 2, 1] S2048x2048x16
  bcast_S11_S1x1x11_2 : S11.BroadcastsInDim S1x1x11 (![2] : Fin 1 → Fin S1x1x11.rank)
  bcast_S1x1x11_S2048x2048x11_0_1_2 : S1x1x11.BroadcastsInDim S2048x2048x11 (![0, 1, 2] : Fin 3 → Fin S2048x2048x11.rank)
  reducesTo_S2048x2048x11_S2048x2048_d2 : S2048x2048x11.ReducesTo [2] S2048x2048
  h_S_ : 0 < S_.numel
  bcast_S2048x2048_S2048x2048x1_0_1 : S2048x2048.BroadcastsInDim S2048x2048x1 (![0, 1] : Fin 2 → Fin S2048x2048x1.rank)
  bcast_S_S2048x2048x1 : S_.BroadcastsInDim S2048x2048x1 (![] : Fin 0 → Fin S2048x2048x1.rank)
  bcast_S2048x2048x1_S2048x2048x11_0_1_2 : S2048x2048x1.BroadcastsInDim S2048x2048x11 (![0, 1, 2] : Fin 3 → Fin S2048x2048x11.rank)
  bcast_S_S2048x2048x11 : S_.BroadcastsInDim S2048x2048x11 (![] : Fin 0 → Fin S2048x2048x11.rank)
  bcast_S6_S1x1x6_2 : S6.BroadcastsInDim S1x1x6 (![2] : Fin 1 → Fin S1x1x6.rank)
  bcast_S1x1x6_S2048x2048x6_0_1_2 : S1x1x6.BroadcastsInDim S2048x2048x6 (![0, 1, 2] : Fin 3 → Fin S2048x2048x6.rank)
  reducesTo_S2048x2048x6_S2048x2048_d2 : S2048x2048x6.ReducesTo [2] S2048x2048
  bcast_S2048x2048x1_S2048x2048x6_0_1_2 : S2048x2048x1.BroadcastsInDim S2048x2048x6 (![0, 1, 2] : Fin 3 → Fin S2048x2048x6.rank)
  bcast_S_S2048x2048x6 : S_.BroadcastsInDim S2048x2048x6 (![] : Fin 0 → Fin S2048x2048x6.rank)
  bcast_S16_S1x1x16_2 : S16.BroadcastsInDim S1x1x16 (![2] : Fin 1 → Fin S1x1x16.rank)
  bcast_S1x1x16_S2048x2048x16_0_1_2 : S1x1x16.BroadcastsInDim S2048x2048x16 (![0, 1, 2] : Fin 3 → Fin S2048x2048x16.rank)
  reducesTo_S2048x2048x16_S2048x2048_d2 : S2048x2048x16.ReducesTo [2] S2048x2048
  bcast_S2048x2048x1_S2048x2048x16_0_1_2 : S2048x2048x1.BroadcastsInDim S2048x2048x16 (![0, 1, 2] : Fin 3 → Fin S2048x2048x16.rank)
  bcast_S_S2048x2048x16 : S_.BroadcastsInDim S2048x2048x16 (![] : Fin 0 → Fin S2048x2048x16.rank)
  transposes_S2048x2048x16_S2048x16x2048_0_2_1 : S2048x2048x16.Transposes [0, 2, 1] S2048x16x2048
  dot_S2048x2048x16_S11x16_S2048x2048x11_2_1_01_0_n_n_wf : DotDims.WF S2048x2048x16 S11x16 S2048x2048x11 [2] [1] [0, 1] [0] [] []
  dot_S2048x2048x11_S6x11_S2048x2048x6_2_1_01_0_n_n_wf : DotDims.WF S2048x2048x11 S6x11 S2048x2048x6 [2] [1] [0, 1] [0] [] []
  dot_S2048x2048x6_S11x6_S2048x2048x11_2_1_01_0_n_n_wf : DotDims.WF S2048x2048x6 S11x6 S2048x2048x11 [2] [1] [0, 1] [0] [] []
  dot_S2048x2048x11_S16x11_S2048x2048x16_2_1_01_0_n_n_wf : DotDims.WF S2048x2048x11 S16x11 S2048x2048x16 [2] [1] [0, 1] [0] [] []

variable [Facts₀]

def dot_S2048x2048x16_S11x16_S2048x2048x11_2_1_01_0_n_n : DotDims S2048x2048x16 S11x16 S2048x2048x11 where
  lhsContracting := [2]
  rhsContracting := [1]
  lhsNonContracting := [0, 1]
  rhsNonContracting := [0]
  lhsBatch := []
  rhsBatch := []
  wf := dot_S2048x2048x16_S11x16_S2048x2048x11_2_1_01_0_n_n_wf
def dot_S2048x2048x11_S6x11_S2048x2048x6_2_1_01_0_n_n : DotDims S2048x2048x11 S6x11 S2048x2048x6 where
  lhsContracting := [2]
  rhsContracting := [1]
  lhsNonContracting := [0, 1]
  rhsNonContracting := [0]
  lhsBatch := []
  rhsBatch := []
  wf := dot_S2048x2048x11_S6x11_S2048x2048x6_2_1_01_0_n_n_wf
def dot_S2048x2048x6_S11x6_S2048x2048x11_2_1_01_0_n_n : DotDims S2048x2048x6 S11x6 S2048x2048x11 where
  lhsContracting := [2]
  rhsContracting := [1]
  lhsNonContracting := [0, 1]
  rhsNonContracting := [0]
  lhsBatch := []
  rhsBatch := []
  wf := dot_S2048x2048x6_S11x6_S2048x2048x11_2_1_01_0_n_n_wf
def dot_S2048x2048x11_S16x11_S2048x2048x16_2_1_01_0_n_n : DotDims S2048x2048x11 S16x11 S2048x2048x16 where
  lhsContracting := [2]
  rhsContracting := [1]
  lhsNonContracting := [0, 1]
  rhsNonContracting := [0]
  lhsBatch := []
  rhsBatch := []
  wf := dot_S2048x2048x11_S16x11_S2048x2048x16_2_1_01_0_n_n_wf

class Facts : Prop extends Facts₀ where

variable [Facts]
-- ==== Proof.KernelMatmul.lean ====
/-
  The four matrix products of the kernel's body, each read at an entry as the sum over its contracted axis
  (lengths 16, 11, 6, 11) of the products of a row of the left factor and a column of the right one.
-/
import proofs.«126905_j57784490000583_1_alg».proof.Proof.Gen.KernelIdeal
import Idealize.ShloMosaic.Lib.ValueIdx
import Idealize.ShloMosaic.PureOps.Ideal.Laws

noncomputable section

namespace Cert.KernelIdeal.Rows

open Cert.KernelIdeal Idealize.ShloMosaic Idealize.ShloMosaic.ValueIdx

theorem mm1_l0 (i : S65536x11.Idx) (q : dot_S65536x16_S16x11_S65536x11_1_0_0_1_n_n.contr.Idx) :
    (dot_S65536x16_S16x11_S65536x11_1_0_0_1_n_n.lhsIdx i q 0).val = (i 0).val := by
  unfold DotDims.lhsIdx
  rw [dif_neg (show ¬(0 : Fin S65536x16.rank) ∈ dot_S65536x16_S16x11_S65536x11_1_0_0_1_n_n.lhsBatch by decide),
    dif_pos (show (0 : Fin S65536x16.rank) ∈ dot_S65536x16_S16x11_S65536x11_1_0_0_1_n_n.lhsNonContracting by decide)]
  rfl
theorem mm1_l1 (i : S65536x11.Idx) (q : dot_S65536x16_S16x11_S65536x11_1_0_0_1_n_n.contr.Idx) :
    (dot_S65536x16_S16x11_S65536x11_1_0_0_1_n_n.lhsIdx i q 1).val = (q ⟨0, by decide⟩).val :=
  dot_S65536x16_S16x11_S65536x11_1_0_0_1_n_n.lhsIdx_val_of_single rfl i q
theorem mm1_r0 (i : S65536x11.Idx) (q : dot_S65536x16_S16x11_S65536x11_1_0_0_1_n_n.contr.Idx) :
    (dot_S65536x16_S16x11_S65536x11_1_0_0_1_n_n.rhsIdx i q 0).val = (q ⟨0, by decide⟩).val :=
  dot_S65536x16_S16x11_S65536x11_1_0_0_1_n_n.rhsIdx_val_of_single rfl i q
theorem mm1_r1 (i : S65536x11.Idx) (q : dot_S65536x16_S16x11_S65536x11_1_0_0_1_n_n.contr.Idx) :
    (dot_S65536x16_S16x11_S65536x11_1_0_0_1_n_n.rhsIdx i q 1).val = (i 1).val := by
  unfold DotDims.rhsIdx
  rw [dif_neg (show ¬(1 : Fin S16x11.rank) ∈ dot_S65536x16_S16x11_S65536x11_1_0_0_1_n_n.rhsBatch by decide),
    dif_pos (show (1 : Fin S16x11.rank) ∈ dot_S65536x16_S16x11_S65536x11_1_0_0_1_n_n.rhsNonContracting by decide)]
  rfl

/-- The product of a 65536 × 16 matrix with a 16 × 11 matrix into a zero accumulator: at (r, o) the sum over the
    contracted axis of the products. -/
theorem mm1 (L : FVec Ideal S65536x16 .f32) (M : FVec Ideal S16x11 .f32) (r : Fin 65536) (o : Fin 11) :
    matmul dot_S65536x16_S16x11_S65536x11_1_0_0_1_n_n none L M (constant S65536x11 .f32 0x00000000#32) (ix2 r o)
      = ∑ j : Fin 16, L (ix2 r j) * M (ix2 j o) := by
  simp only [matmul]
  rw [Ideal.matmul_constant_zero_apply, ← Equiv.sum_comp (contrEquiv1 dot_S65536x16_S16x11_S65536x11_1_0_0_1_n_n 16 rfl rfl).symm]
  refine Finset.sum_congr rfl fun j _ => ?_
  have hk := contrEquiv1_symm_val dot_S65536x16_S16x11_S65536x11_1_0_0_1_n_n 16 rfl rfl j
  have el : dot_S65536x16_S16x11_S65536x11_1_0_0_1_n_n.lhsIdx (ix2 r o) ((contrEquiv1 dot_S65536x16_S16x11_S65536x11_1_0_0_1_n_n 16 rfl rfl).symm j) = ix2 r j :=
    funext fun a => Fin.ext (by
      match a with
      | ⟨0, _⟩ => exact mm1_l0 _ _
      | ⟨1, _⟩ => exact (mm1_l1 _ _).trans hk)
  have er : dot_S65536x16_S16x11_S65536x11_1_0_0_1_n_n.rhsIdx (ix2 r o) ((contrEquiv1 dot_S65536x16_S16x11_S65536x11_1_0_0_1_n_n 16 rfl rfl).symm j) = ix2 j o :=
    funext fun a => Fin.ext (by
      match a with
      | ⟨0, _⟩ => exact (mm1_r0 _ _).trans hk
      | ⟨1, _⟩ => exact mm1_r1 _ _)
  rw [el, er]

theorem mm2_l0 (i : S65536x6.Idx) (q : dot_S65536x11_S11x6_S65536x6_1_0_0_1_n_n.contr.Idx) :
    (dot_S65536x11_S11x6_S65536x6_1_0_0_1_n_n.lhsIdx i q 0).val = (i 0).val := by
  unfold DotDims.lhsIdx
  rw [dif_neg (show ¬(0 : Fin S65536x11.rank) ∈ dot_S65536x11_S11x6_S65536x6_1_0_0_1_n_n.lhsBatch by decide),
    dif_pos (show (0 : Fin S65536x11.rank) ∈ dot_S65536x11_S11x6_S65536x6_1_0_0_1_n_n.lhsNonContracting by decide)]
  rfl
theorem mm2_l1 (i : S65536x6.Idx) (q : dot_S65536x11_S11x6_S65536x6_1_0_0_1_n_n.contr.Idx) :
    (dot_S65536x11_S11x6_S65536x6_1_0_0_1_n_n.lhsIdx i q 1).val = (q ⟨0, by decide⟩).val :=
  dot_S65536x11_S11x6_S65536x6_1_0_0_1_n_n.lhsIdx_val_of_single rfl i q
theorem mm2_r0 (i : S65536x6.Idx) (q : dot_S65536x11_S11x6_S65536x6_1_0_0_1_n_n.contr.Idx) :
    (dot_S65536x11_S11x6_S65536x6_1_0_0_1_n_n.rhsIdx i q 0).val = (q ⟨0, by decide⟩).val :=
  dot_S65536x11_S11x6_S65536x6_1_0_0_1_n_n.rhsIdx_val_of_single rfl i q
theorem mm2_r1 (i : S65536x6.Idx) (q : dot_S65536x11_S11x6_S65536x6_1_0_0_1_n_n.contr.Idx) :
    (dot_S65536x11_S11x6_S65536x6_1_0_0_1_n_n.rhsIdx i q 1).val = (i 1).val := by
  unfold DotDims.rhsIdx
  rw [dif_neg (show ¬(1 : Fin S11x6.rank) ∈ dot_S65536x11_S11x6_S65536x6_1_0_0_1_n_n.rhsBatch by decide),
    dif_pos (show (1 : Fin S11x6.rank) ∈ dot_S65536x11_S11x6_S65536x6_1_0_0_1_n_n.rhsNonContracting by decide)]
  rfl

/-- The product of a 65536 × 11 matrix with a 11 × 6 matrix into a zero accumulator: at (r, o) the sum over the
    contracted axis of the products. -/
theorem mm2 (L : FVec Ideal S65536x11 .f32) (M : FVec Ideal S11x6 .f32) (r : Fin 65536) (o : Fin 6) :
    matmul dot_S65536x11_S11x6_S65536x6_1_0_0_1_n_n none L M (constant S65536x6 .f32 0x00000000#32) (ix2 r o)
      = ∑ j : Fin 11, L (ix2 r j) * M (ix2 j o) := by
  simp only [matmul]
  rw [Ideal.matmul_constant_zero_apply, ← Equiv.sum_comp (contrEquiv1 dot_S65536x11_S11x6_S65536x6_1_0_0_1_n_n 11 rfl rfl).symm]
  refine Finset.sum_congr rfl fun j _ => ?_
  have hk := contrEquiv1_symm_val dot_S65536x11_S11x6_S65536x6_1_0_0_1_n_n 11 rfl rfl j
  have el : dot_S65536x11_S11x6_S65536x6_1_0_0_1_n_n.lhsIdx (ix2 r o) ((contrEquiv1 dot_S65536x11_S11x6_S65536x6_1_0_0_1_n_n 11 rfl rfl).symm j) = ix2 r j :=
    funext fun a => Fin.ext (by
      match a with
      | ⟨0, _⟩ => exact mm2_l0 _ _
      | ⟨1, _⟩ => exact (mm2_l1 _ _).trans hk)
  have er : dot_S65536x11_S11x6_S65536x6_1_0_0_1_n_n.rhsIdx (ix2 r o) ((contrEquiv1 dot_S65536x11_S11x6_S65536x6_1_0_0_1_n_n 11 rfl rfl).symm j) = ix2 j o :=
    funext fun a => Fin.ext (by
      match a with
      | ⟨0, _⟩ => exact (mm2_r0 _ _).trans hk
      | ⟨1, _⟩ => exact mm2_r1 _ _)
  rw [el, er]

theorem mm3_l0 (i : S65536x11.Idx) (q : dot_S65536x6_S6x11_S65536x11_1_0_0_1_n_n.contr.Idx) :
    (dot_S65536x6_S6x11_S65536x11_1_0_0_1_n_n.lhsIdx i q 0).val = (i 0).val := by
  unfold DotDims.lhsIdx
  rw [dif_neg (show ¬(0 : Fin S65536x6.rank) ∈ dot_S65536x6_S6x11_S65536x11_1_0_0_1_n_n.lhsBatch by decide),
    dif_pos (show (0 : Fin S65536x6.rank) ∈ dot_S65536x6_S6x11_S65536x11_1_0_0_1_n_n.lhsNonContracting by decide)]
  rfl
theorem mm3_l1 (i : S65536x11.Idx) (q : dot_S65536x6_S6x11_S65536x11_1_0_0_1_n_n.contr.Idx) :
    (dot_S65536x6_S6x11_S65536x11_1_0_0_1_n_n.lhsIdx i q 1).val = (q ⟨0, by decide⟩).val :=
  dot_S65536x6_S6x11_S65536x11_1_0_0_1_n_n.lhsIdx_val_of_single rfl i q
theorem mm3_r0 (i : S65536x11.Idx) (q : dot_S65536x6_S6x11_S65536x11_1_0_0_1_n_n.contr.Idx) :
    (dot_S65536x6_S6x11_S65536x11_1_0_0_1_n_n.rhsIdx i q 0).val = (q ⟨0, by decide⟩).val :=
  dot_S65536x6_S6x11_S65536x11_1_0_0_1_n_n.rhsIdx_val_of_single rfl i q
theorem mm3_r1 (i : S65536x11.Idx) (q : dot_S65536x6_S6x11_S65536x11_1_0_0_1_n_n.contr.Idx) :
    (dot_S65536x6_S6x11_S65536x11_1_0_0_1_n_n.rhsIdx i q 1).val = (i 1).val := by
  unfold DotDims.rhsIdx
  rw [dif_neg (show ¬(1 : Fin S6x11.rank) ∈ dot_S65536x6_S6x11_S65536x11_1_0_0_1_n_n.rhsBatch by decide),
    dif_pos (show (1 : Fin S6x11.rank) ∈ dot_S65536x6_S6x11_S65536x11_1_0_0_1_n_n.rhsNonContracting by decide)]
  rfl

/-- The product of a 65536 × 6 matrix with a 6 × 11 matrix into a zero accumulator: at (r, o) the sum over the
    contracted axis of the products. -/
theorem mm3 (L : FVec Ideal S65536x6 .f32) (M : FVec Ideal S6x11 .f32) (r : Fin 65536) (o : Fin 11) :
    matmul dot_S65536x6_S6x11_S65536x11_1_0_0_1_n_n none L M (constant S65536x11 .f32 0x00000000#32) (ix2 r o)
      = ∑ j : Fin 6, L (ix2 r j) * M (ix2 j o) := by
  simp only [matmul]
  rw [Ideal.matmul_constant_zero_apply, ← Equiv.sum_comp (contrEquiv1 dot_S65536x6_S6x11_S65536x11_1_0_0_1_n_n 6 rfl rfl).symm]
  refine Finset.sum_congr rfl fun j _ => ?_
  have hk := contrEquiv1_symm_val dot_S65536x6_S6x11_S65536x11_1_0_0_1_n_n 6 rfl rfl j
  have el : dot_S65536x6_S6x11_S65536x11_1_0_0_1_n_n.lhsIdx (ix2 r o) ((contrEquiv1 dot_S65536x6_S6x11_S65536x11_1_0_0_1_n_n 6 rfl rfl).symm j) = ix2 r j :=
    funext fun a => Fin.ext (by
      match a with
      | ⟨0, _⟩ => exact mm3_l0 _ _
      | ⟨1, _⟩ => exact (mm3_l1 _ _).trans hk)
  have er : dot_S65536x6_S6x11_S65536x11_1_0_0_1_n_n.rhsIdx (ix2 r o) ((contrEquiv1 dot_S65536x6_S6x11_S65536x11_1_0_0_1_n_n 6 rfl rfl).symm j) = ix2 j o :=
    funext fun a => Fin.ext (by
      match a with
      | ⟨0, _⟩ => exact (mm3_r0 _ _).trans hk
      | ⟨1, _⟩ => exact mm3_r1 _ _)
  rw [el, er]

theorem mm4_l0 (i : S65536x16.Idx) (q : dot_S65536x11_S11x16_S65536x16_1_0_0_1_n_n.contr.Idx) :
    (dot_S65536x11_S11x16_S65536x16_1_0_0_1_n_n.lhsIdx i q 0).val = (i 0).val := by
  unfold DotDims.lhsIdx
  rw [dif_neg (show ¬(0 : Fin S65536x11.rank) ∈ dot_S65536x11_S11x16_S65536x16_1_0_0_1_n_n.lhsBatch by decide),
    dif_pos (show (0 : Fin S65536x11.rank) ∈ dot_S65536x11_S11x16_S65536x16_1_0_0_1_n_n.lhsNonContracting by decide)]
  rfl
theorem mm4_l1 (i : S65536x16.Idx) (q : dot_S65536x11_S11x16_S65536x16_1_0_0_1_n_n.contr.Idx) :
    (dot_S65536x11_S11x16_S65536x16_1_0_0_1_n_n.lhsIdx i q 1).val = (q ⟨0, by decide⟩).val :=
  dot_S65536x11_S11x16_S65536x16_1_0_0_1_n_n.lhsIdx_val_of_single rfl i q
theorem mm4_r0 (i : S65536x16.Idx) (q : dot_S65536x11_S11x16_S65536x16_1_0_0_1_n_n.contr.Idx) :
    (dot_S65536x11_S11x16_S65536x16_1_0_0_1_n_n.rhsIdx i q 0).val = (q ⟨0, by decide⟩).val :=
  dot_S65536x11_S11x16_S65536x16_1_0_0_1_n_n.rhsIdx_val_of_single rfl i q
theorem mm4_r1 (i : S65536x16.Idx) (q : dot_S65536x11_S11x16_S65536x16_1_0_0_1_n_n.contr.Idx) :
    (dot_S65536x11_S11x16_S65536x16_1_0_0_1_n_n.rhsIdx i q 1).val = (i 1).val := by
  unfold DotDims.rhsIdx
  rw [dif_neg (show ¬(1 : Fin S11x16.rank) ∈ dot_S65536x11_S11x16_S65536x16_1_0_0_1_n_n.rhsBatch by decide),
    dif_pos (show (1 : Fin S11x16.rank) ∈ dot_S65536x11_S11x16_S65536x16_1_0_0_1_n_n.rhsNonContracting by decide)]
  rfl

/-- The product of a 65536 × 11 matrix with a 11 × 16 matrix into a zero accumulator: at (r, o) the sum over the
    contracted axis of the products. -/
theorem mm4 (L : FVec Ideal S65536x11 .f32) (M : FVec Ideal S11x16 .f32) (r : Fin 65536) (o : Fin 16) :
    matmul dot_S65536x11_S11x16_S65536x16_1_0_0_1_n_n none L M (constant S65536x16 .f32 0x00000000#32) (ix2 r o)
      = ∑ j : Fin 11, L (ix2 r j) * M (ix2 j o) := by
  simp only [matmul]
  rw [Ideal.matmul_constant_zero_apply, ← Equiv.sum_comp (contrEquiv1 dot_S65536x11_S11x16_S65536x16_1_0_0_1_n_n 11 rfl rfl).symm]
  refine Finset.sum_congr rfl fun j _ => ?_
  have hk := contrEquiv1_symm_val dot_S65536x11_S11x16_S65536x16_1_0_0_1_n_n 11 rfl rfl j
  have el : dot_S65536x11_S11x16_S65536x16_1_0_0_1_n_n.lhsIdx (ix2 r o) ((contrEquiv1 dot_S65536x11_S11x16_S65536x16_1_0_0_1_n_n 11 rfl rfl).symm j) = ix2 r j :=
    funext fun a => Fin.ext (by
      match a with
      | ⟨0, _⟩ => exact mm4_l0 _ _
      | ⟨1, _⟩ => exact (mm4_l1 _ _).trans hk)
  have er : dot_S65536x11_S11x16_S65536x16_1_0_0_1_n_n.rhsIdx (ix2 r o) ((contrEquiv1 dot_S65536x11_S11x16_S65536x16_1_0_0_1_n_n 11 rfl rfl).symm j) = ix2 j o :=
    funext fun a => Fin.ext (by
      match a with
      | ⟨0, _⟩ => exact (mm4_r0 _ _).trans hk
      | ⟨1, _⟩ => exact mm4_r1 _ _)
  rw [el, er]

end Cert.KernelIdeal.Rows

end
-- ==== Proof.LibRowNet.lean ====
/-
  Rows through a small dense network, read index by index on the extended reals.

  A "row" is a vector of extended reals indexed by its last axis. One LAYER takes a row x of length n to
  the row of length k

      y o   = (∑ j, x j * W o j) + b o                         (an affine map)
      μ     = (∑ i, y i) / den
      σ²    = (∑ i, (y i - μ) * (y i - μ)) / den
      out o = max (((y o - μ) * rsqrt (σ² + eps)) * g o + be o) zero

  (division, reciprocal square root and max the exact extended-real ones). This file states that function once
  (lin, norm, layer) and proves that the vector program which flattens a stack [A, B, n] of rows to
  [A·B, n], multiplies by the transposed weight matrix into a zero accumulator, adds the bias row, restores the
  stack, and normalises along the last axis with keepdims reductions and broadcasts, computes exactly that
  function of each row: the entry at (p, q, o) depends only on the row (p, q, ·) of the input.
  Everything is generic in the extents A, B, n, k.
-/
import Idealize.ShloMosaic.Lib.Pipeline.Value
import Idealize.ShloMosaic.Lib.ValueIdx
import Idealize.ShloMosaic.Lib.ValueLayout
import Idealize.ShloMosaic.PureOps.Ideal.Laws

noncomputable section

namespace Cert.RowNet

open Idealize.ShloMosaic Idealize.ShloMosaic.ValueIdx

/-! ## The row functions -/

/-- The affine map of a row: y o = (∑ j, x j * W o j) + b o. -/
def lin {n k : ℕ} (W : Fin k → Fin n → EReal) (b : Fin k → EReal) (x : Fin n → EReal) : Fin k → EReal :=
  fun o => (∑ j : Fin n, x j * W o j) + b o

/-- Normalisation of a row by its own mean and (biased) variance, then scale and shift. -/
def norm {k : ℕ} (den eps : EReal) (g be : Fin k → EReal) (y : Fin k → EReal) : Fin k → EReal :=
  fun o =>
    (y o - Ideal.div (∑ i : Fin k, y i) den)
        * Ideal.rsqrt (Ideal.div (∑ i : Fin k, (y i - Ideal.div (∑ i' : Fin k, y i') den) * (y i - Ideal.div (∑ i' : Fin k, y i') den)) den + eps)
        * g o
      + be o

/-- One layer: affine map, normalisation, and the positive part against zero. -/
def layer {n k : ℕ} (den eps zero : EReal) (W : Fin k → Fin n → EReal) (b g be : Fin k → EReal) (x : Fin n → EReal) : Fin k → EReal :=
  fun o => max (norm den eps g be (lin W b x) o) zero

/-! ## Layout operations on stacks of rows, read at an index -/

section layout
variable {α : Type}

/-- p·B + q is a row number of the flattened stack. -/
theorem row_lt {A B R : ℕ} (hR : R = A * B) (p : Fin A) (q : Fin B) : p.val * B + q.val < R := by
  rw [hR]
  calc p.val * B + q.val < p.val * B + B := Nat.add_lt_add_left q.isLt _
    _ = (p.val + 1) * B := by rw [Nat.succ_mul]
    _ ≤ A * B := Nat.mul_le_mul_right _ p.isLt

/-- The stack [A, B, n] flattened to [R, n]: row p·B + q is row (p, q). -/
theorem flatten_apply {A B R n : ℕ} (x : (⟨3, ![A, B, n]⟩ : Shape).Idx → α) (h : (⟨3, ![A, B, n]⟩ : Shape).ShapeCasts ⟨2, ![R, n]⟩)
    (p : Fin A) (q : Fin B) (r : Fin R) (o : Fin n) (hr : r.val = p.val * B + q.val) :
    shapeCast ⟨2, ![R, n]⟩ x h (ix2 r o) = x (ix3 p q o) :=
  shapeCast_apply x h _ _ (by
    rw [Shape.rowMajor_val_three, Shape.rowMajor_val_two]
    show (p.val * B + q.val) * n + o.val = r.val * n + o.val
    rw [hr])

/-- [R, n] restored to the stack [A, B, n]: row (p, q) is row p·B + q. -/
theorem unflatten_apply {A B R n : ℕ} (x : (⟨2, ![R, n]⟩ : Shape).Idx → α) (h : (⟨2, ![R, n]⟩ : Shape).ShapeCasts ⟨3, ![A, B, n]⟩)
    (p : Fin A) (q : Fin B) (r : Fin R) (o : Fin n) (hr : r.val = p.val * B + q.val) :
    shapeCast ⟨3, ![A, B, n]⟩ x h (ix3 p q o) = x (ix2 r o) :=
  shapeCast_apply x h _ _ (by
    rw [Shape.rowMajor_val_three, Shape.rowMajor_val_two]
    show r.val * n + o.val = (p.val * B + q.val) * n + o.val
    rw [hr])

/-- A trailing unit axis added: [A, B] read as [A, B, 1]. -/
theorem keepdims_apply {A B : ℕ} (x : (⟨2, ![A, B]⟩ : Shape).Idx → α) (h : (⟨2, ![A, B]⟩ : Shape).ShapeCasts ⟨3, ![A, B, 1]⟩)
    (p : Fin A) (q : Fin B) (u : Fin 1) :
    shapeCast ⟨3, ![A, B, 1]⟩ x h (ix3 p q u) = x (ix2 p q) :=
  shapeCast_apply x h _ _ (by
    have hu : u.val = 0 := by omega
    rw [Shape.rowMajor_val_three, Shape.rowMajor_val_two]
    show p.val * B + q.val = (p.val * B + q.val) * 1 + u.val
    rw [hu, Nat.mul_one, Nat.add_zero])

/-- The column [A, B, 1] broadcast along the last axis to [A, B, k]. -/
theorem bcastLast_apply {A B k : ℕ} (x : (⟨3, ![A, B, 1]⟩ : Shape).Idx → α) (h : (⟨3, ![A, B, 1]⟩ : Shape).Broadcasts ⟨3, ![A, B, k]⟩)
    (p : Fin A) (q : Fin B) (o : Fin k) :
    broadcastTo ⟨3, ![A, B, k]⟩ x h (ix3 p q o) = x (ix3 p q (0 : Fin 1)) := by
  refine broadcastTo_apply x h (ix3 p q o) (ix3 p q (0 : Fin 1)) fun ax => ?_
  match ax with
  | ⟨0, _⟩ =>
    show p.val = if A = 1 then 0 else p.val
    split
    · have := p.isLt; omega
    · rfl
  | ⟨1, _⟩ =>
    show q.val = if B = 1 then 0 else q.val
    split
    · have := q.isLt; omega
    · rfl
  | ⟨2, _⟩ => rfl

/-- A vector [k] read as [1, 1, k]. -/
theorem lead2_apply {k : ℕ} (x : (⟨1, ![k]⟩ : Shape).Idx → α) (h : (⟨1, ![k]⟩ : Shape).ShapeCasts ⟨3, ![1, 1, k]⟩)
    (u v : Fin 1) (o : Fin k) :
    shapeCast ⟨3, ![1, 1, k]⟩ x h (ix3 u v o) = x (ix1 o) :=
  shapeCast_apply x h _ _ (by
    have hu : u.val = 0 := by omega
    have hv : v.val = 0 := by omega
    rw [Shape.rowMajor_val_three, Shape.rowMajor_val_one]
    show o.val = (u.val * 1 + v.val) * k + o.val
    rw [hu, hv]; simp)

/-- The row [1, 1, k] broadcast over the stack to [A, B, k]. -/
theorem bcastRow_apply {A B k : ℕ} (x : (⟨3, ![1, 1, k]⟩ : Shape).Idx → α) (h : (⟨3, ![1, 1, k]⟩ : Shape).Broadcasts ⟨3, ![A, B, k]⟩)
    (p : Fin A) (q : Fin B) (o : Fin k) :
    broadcastTo ⟨3, ![A, B, k]⟩ x h (ix3 p q o) = x (ix3 (0 : Fin 1) (0 : Fin 1) o) := by
  refine broadcastTo_apply x h (ix3 p q o) (ix3 (0 : Fin 1) (0 : Fin 1) o) fun ax => ?_
  match ax with
  | ⟨0, _⟩ => rfl
  | ⟨1, _⟩ => rfl
  | ⟨2, _⟩ =>
    show o.val = if k = 1 then 0 else o.val
    split
    · have := o.isLt; omega
    · rfl

end layout

/-! ## Sums along the last axis -/

/-- The sum of a stack along its last axis, into a zero accumulator: at (p, q) the sum of row (p, q). -/
theorem sumLast_apply {A B k : ℕ} (Y : FVec Ideal ⟨3, ![A, B, k]⟩ .f32)
    (hr : (⟨3, ![A, B, k]⟩ : Shape).Reduces [2] ⟨2, ![A, B]⟩) (hφ : FKind.Formats .f32)
    (hacc : (0x00000000#32 : BitVec FTy.f32.bits) = FKind.add.neutral .f32 hφ) (p : Fin A) (q : Fin B) :
    multiReduction .add [2] ⟨2, ![A, B]⟩ Y 0x00000000#32 hr hφ hacc (ix2 p q) = ∑ o : Fin k, Y (ix3 p q o) :=
  (Ideal.multiReduction_add_single Y _ hr hφ hacc (ix2 p q)).trans
    (Finset.sum_congr rfl fun o _ => congrArg Y (funext fun a => Fin.ext (by
      match a with
      | ⟨0, _⟩ => rfl
      | ⟨1, _⟩ => rfl
      | ⟨2, _⟩ => rfl)))

/-! ## The vector program of one layer, and what it computes row by row -/

section program
variable {A B R n k : ℕ}

/-- The affine map as the vector program spells it: flatten the stack, multiply by the transposed weights into a
    zero accumulator, add the bias row broadcast over all rows, restore the stack. -/
def kLin (D : DotDims ⟨2, ![R, n]⟩ ⟨2, ![n, k]⟩ ⟨2, ![R, k]⟩)
    (h1 : (⟨3, ![A, B, n]⟩ : Shape).ShapeCasts ⟨2, ![R, n]⟩) (h2 : (⟨2, ![k, n]⟩ : Shape).Transposes [1, 0] ⟨2, ![n, k]⟩)
    (h3 : (⟨1, ![k]⟩ : Shape).ShapeCasts ⟨2, ![1, k]⟩) (h4 : (⟨2, ![1, k]⟩ : Shape).Broadcasts ⟨2, ![R, k]⟩)
    (h5 : (⟨2, ![R, k]⟩ : Shape).ShapeCasts ⟨3, ![A, B, k]⟩)
    (X : FVec Ideal ⟨3, ![A, B, n]⟩ .f32) (W : FVec Ideal ⟨2, ![k, n]⟩ .f32) (b : FVec Ideal ⟨1, ![k]⟩ .f32) :
    FVec Ideal ⟨3, ![A, B, k]⟩ .f32 :=
  shapeCast ⟨3, ![A, B, k]⟩
    (addf (matmul D none (shapeCast ⟨2, ![R, n]⟩ X h1) (transpose ⟨2, ![n, k]⟩ [1, 0] W h2) (constant ⟨2, ![R, k]⟩ .f32 0x00000000#32))
      (broadcastTo ⟨2, ![R, k]⟩ (shapeCast ⟨2, ![1, k]⟩ b h3) h4)) h5

/-- Row (p, q) of the affine map is lin of row (p, q) of the input, given that the matrix product into a
    zero accumulator is the plain sum of products over the contracted axis. -/
theorem kLin_apply (D : DotDims ⟨2, ![R, n]⟩ ⟨2, ![n, k]⟩ ⟨2, ![R, k]⟩)
    (h1 : (⟨3, ![A, B, n]⟩ : Shape).ShapeCasts ⟨2, ![R, n]⟩) (h2 : (⟨2, ![k, n]⟩ : Shape).Transposes [1, 0] ⟨2, ![n, k]⟩)
    (h3 : (⟨1, ![k]⟩ : Shape).ShapeCasts ⟨2, ![1, k]⟩) (h4 : (⟨2, ![1, k]⟩ : Shape).Broadcasts ⟨2, ![R, k]⟩)
    (h5 : (⟨2, ![R, k]⟩ : Shape).ShapeCasts ⟨3, ![A, B, k]⟩)
    (X : FVec Ideal ⟨3, ![A, B, n]⟩ .f32) (W : FVec Ideal ⟨2, ![k, n]⟩ .f32) (b : FVec Ideal ⟨1, ![k]⟩ .f32)
    (hR : R = A * B)
    (hmm : ∀ (L : FVec Ideal ⟨2, ![R, n]⟩ .f32) (M : FVec Ideal ⟨2, ![n, k]⟩ .f32) (r : Fin R) (o : Fin k),
      matmul D none L M (constant ⟨2, ![R, k]⟩ .f32 0x00000000#32) (ix2 r o) = ∑ j : Fin n, L (ix2 r j) * M (ix2 j o))
    (p : Fin A) (q : Fin B) (o : Fin k) :
    kLin D h1 h2 h3 h4 h5 X W b (ix3 p q o)
      = lin (fun o j => W (ix2 o j)) (fun o => b (ix1 o)) (fun j => X (ix3 p q j)) o := by
  unfold kLin lin
  rw [unflatten_apply _ h5 p q ⟨_, row_lt hR p q⟩ o rfl, addf_apply, hmm, broadcastTo_1b_ab_apply, shapeCast_a_1a_apply]
  refine congrArg (· + b (ix1 o)) (Finset.sum_congr rfl fun j _ => ?_)
  rw [flatten_apply X h1 p q ⟨_, row_lt hR p q⟩ j rfl, transpose_ix2_apply]

/-- The normalisation as the vector program spells it: keepdims sums along the last axis divided by a splat,
    the differences, their squares' mean, the reciprocal square root, and the scale and shift rows broadcast
    over the stack. -/
def kNorm (hr : (⟨3, ![A, B, k]⟩ : Shape).Reduces [2] ⟨2, ![A, B]⟩) (hφ : FKind.Formats .f32)
    (hacc : (0x00000000#32 : BitVec FTy.f32.bits) = FKind.add.neutral .f32 hφ)
    (c1 : (⟨2, ![A, B]⟩ : Shape).ShapeCasts ⟨3, ![A, B, 1]⟩) (b1 : (⟨3, ![A, B, 1]⟩ : Shape).Broadcasts ⟨3, ![A, B, k]⟩)
    (c2 : (⟨1, ![k]⟩ : Shape).ShapeCasts ⟨3, ![1, 1, k]⟩) (b2 : (⟨3, ![1, 1, k]⟩ : Shape).Broadcasts ⟨3, ![A, B, k]⟩)
    (den eps : BitVec 32) (Y : FVec Ideal ⟨3, ![A, B, k]⟩ .f32) (g be : FVec Ideal ⟨1, ![k]⟩ .f32) :
    FVec Ideal ⟨3, ![A, B, k]⟩ .f32 :=
  addf
    (mulf
      (mulf
        (subf Y (broadcastTo ⟨3, ![A, B, k]⟩
          (divf (shapeCast ⟨3, ![A, B, 1]⟩ (multiReduction .add [2] ⟨2, ![A, B]⟩ Y 0x00000000#32 hr hφ hacc) c1)
            (broadcast ⟨3, ![A, B, 1]⟩ (Scalar.ofBits .f32 den))) b1))
        (broadcastTo ⟨3, ![A, B, k]⟩
          (rsqrt (addf
            (divf (shapeCast ⟨3, ![A, B, 1]⟩ (multiReduction .add [2] ⟨2, ![A, B]⟩
                (mulf
                  (subf Y (broadcastTo ⟨3, ![A, B, k]⟩
                    (divf (shapeCast ⟨3, ![A, B, 1]⟩ (multiReduction .add [2] ⟨2, ![A, B]⟩ Y 0x00000000#32 hr hφ hacc) c1)
                      (broadcast ⟨3, ![A, B, 1]⟩ (Scalar.ofBits .f32 den))) b1))
                  (subf Y (broadcastTo ⟨3, ![A, B, k]⟩
                    (divf (shapeCast ⟨3, ![A, B, 1]⟩ (multiReduction .add [2] ⟨2, ![A, B]⟩ Y 0x00000000#32 hr hφ hacc) c1)
                      (broadcast ⟨3, ![A, B, 1]⟩ (Scalar.ofBits .f32 den))) b1)))
                0x00000000#32 hr hφ hacc) c1)
              (broadcast ⟨3, ![A, B, 1]⟩ (Scalar.ofBits .f32 den)))
            (broadcast ⟨3, ![A, B, 1]⟩ (Scalar.ofBits .f32 eps)))) b1))
      (broadcastTo ⟨3, ![A, B, k]⟩ (shapeCast ⟨3, ![1, 1, k]⟩ g c2) b2))
    (broadcastTo ⟨3, ![A, B, k]⟩ (shapeCast ⟨3, ![1, 1, k]⟩ be c2) b2)

/-- Row (p, q) of the normalisation is norm of row (p, q). -/
theorem kNorm_apply (hr : (⟨3, ![A, B, k]⟩ : Shape).Reduces [2] ⟨2, ![A, B]⟩) (hφ : FKind.Formats .f32)
    (hacc : (0x00000000#32 : BitVec FTy.f32.bits) = FKind.add.neutral .f32 hφ)
    (c1 : (⟨2, ![A, B]⟩ : Shape).ShapeCasts ⟨3, ![A, B, 1]⟩) (b1 : (⟨3, ![A, B, 1]⟩ : Shape).Broadcasts ⟨3, ![A, B, k]⟩)
    (c2 : (⟨1, ![k]⟩ : Shape).ShapeCasts ⟨3, ![1, 1, k]⟩) (b2 : (⟨3, ![1, 1, k]⟩ : Shape).Broadcasts ⟨3, ![A, B, k]⟩)
    (den eps : BitVec 32) (Y : FVec Ideal ⟨3, ![A, B, k]⟩ .f32) (g be : FVec Ideal ⟨1, ![k]⟩ .f32)
    (p : Fin A) (q : Fin B) (o : Fin k) :
    kNorm hr hφ hacc c1 b1 c2 b2 den eps Y g be (ix3 p q o)
      = norm (Ideal.ofBits .f32 den) (Ideal.ofBits .f32 eps) (fun o => g (ix1 o)) (fun o => be (ix1 o)) (fun i => Y (ix3 p q i)) o := by
  unfold kNorm norm
  simp only [addf_apply, mulf_apply, subf_apply, divf_apply, rsqrt, Ideal.rsqrt_def, broadcast_apply, bcastLast_apply, keepdims_apply,
    sumLast_apply _ hr hφ hacc, bcastRow_apply, lead2_apply]
  rfl

/-- The positive part against the zero splat, entry by entry. -/
theorem relu_apply {s : Shape} (Y : FVec Ideal s .f32) (i : s.Idx) :
    maximumf Y (broadcast s (Scalar.ofBits .f32 0x00000000#32)) i = max (Y i) (Ideal.ofBits .f32 0x00000000#32) := rfl

/-- One whole layer of the vector program, row by row: the entries (p, q, ·) of its result are layer of the row
    (p, q, ·) of its input. Stated as an equation of functions of the last coordinate, so that layers compose. -/
theorem kLayer_fun (D : DotDims ⟨2, ![R, n]⟩ ⟨2, ![n, k]⟩ ⟨2, ![R, k]⟩)
    (h1 : (⟨3, ![A, B, n]⟩ : Shape).ShapeCasts ⟨2, ![R, n]⟩) (h2 : (⟨2, ![k, n]⟩ : Shape).Transposes [1, 0] ⟨2, ![n, k]⟩)
    (h3 : (⟨1, ![k]⟩ : Shape).ShapeCasts ⟨2, ![1, k]⟩) (h4 : (⟨2, ![1, k]⟩ : Shape).Broadcasts ⟨2, ![R, k]⟩)
    (h5 : (⟨2, ![R, k]⟩ : Shape).ShapeCasts ⟨3, ![A, B, k]⟩)
    (hr : (⟨3, ![A, B, k]⟩ : Shape).Reduces [2] ⟨2, ![A, B]⟩) (hφ : FKind.Formats .f32)
    (hacc : (0x00000000#32 : BitVec FTy.f32.bits) = FKind.add.neutral .f32 hφ)
    (c1 : (⟨2, ![A, B]⟩ : Shape).ShapeCasts ⟨3, ![A, B, 1]⟩) (b1 : (⟨3, ![A, B, 1]⟩ : Shape).Broadcasts ⟨3, ![A, B, k]⟩)
    (c2 : (⟨1, ![k]⟩ : Shape).ShapeCasts ⟨3, ![1, 1, k]⟩) (b2 : (⟨3, ![1, 1, k]⟩ : Shape).Broadcasts ⟨3, ![A, B, k]⟩)
    (den eps : BitVec 32)
    (X : FVec Ideal ⟨3, ![A, B, n]⟩ .f32) (W : FVec Ideal ⟨2, ![k, n]⟩ .f32) (b g be : FVec Ideal ⟨1, ![k]⟩ .f32)
    (hR : R = A * B)
    (hmm : ∀ (L : FVec Ideal ⟨2, ![R, n]⟩ .f32) (M : FVec Ideal ⟨2, ![n, k]⟩ .f32) (r : Fin R) (o : Fin k),
      matmul D none L M (constant ⟨2, ![R, k]⟩ .f32 0x00000000#32) (ix2 r o) = ∑ j : Fin n, L (ix2 r j) * M (ix2 j o))
    (p : Fin A) (q : Fin B) :
    (fun o : Fin k => maximumf (kNorm hr hφ hacc c1 b1 c2 b2 den eps (kLin D h1 h2 h3 h4 h5 X W b) g be)
        (broadcast ⟨3, ![A, B, k]⟩ (Scalar.ofBits .f32 0x00000000#32)) (ix3 p q o))
      = layer (Ideal.ofBits .f32 den) (Ideal.ofBits .f32 eps) (Ideal.ofBits .f32 0x00000000#32)
          (fun o j => W (ix2 o j)) (fun o => b (ix1 o)) (fun o => g (ix1 o)) (fun o => be (ix1 o)) (fun j => X (ix3 p q j)) := by
  funext o
  rw [relu_apply, kNorm_apply]
  unfold layer
  rw [show (fun i => kLin D h1 h2 h3 h4 h5 X W b (ix3 p q i))
        = lin (fun o j => W (ix2 o j)) (fun o => b (ix1 o)) (fun j => X (ix3 p q j))
      from funext fun i => kLin_apply D h1 h2 h3 h4 h5 X W b hR hmm p q i]

end program

end Cert.RowNet

end
-- ==== Proof.Net.lean ====
/-
  The function both programs compute on one row.

  The input row x has length 16 (the sequence axis); four layers of the kind described in LibRowNet follow,
  of widths 16 → 11 → 6 → 11 → 16, each dividing its sums by its own width (11, 6, 11, 16) and adding the same
  small constant under the reciprocal square root. The constants are kept as the binary words both programs
  print; they are never evaluated.
-/
import proofs.«126905_j57784490000583_1_alg».proof.Proof.LibRowNet

noncomputable section

namespace Cert.RowNet

open Idealize.ShloMosaic

/-- The width 11 as both programs write it. -/
abbrev c11 : EReal := Ideal.ofBits .f32 0x41300000#32
/-- The width 6. -/
abbrev c6 : EReal := Ideal.ofBits .f32 0x40C00000#32
/-- The width 16. -/
abbrev c16 : EReal := Ideal.ofBits .f32 0x41800000#32
/-- The constant added to the variance. -/
abbrev ceps : EReal := Ideal.ofBits .f32 0x3727C5AC#32
/-- The zero the positive part is taken against. -/
abbrev czero : EReal := Ideal.ofBits .f32 0x00000000#32

/-- The whole network on one row. -/
def net (W0 : Fin 11 → Fin 16 → EReal) (b0 g0 be0 : Fin 11 → EReal)
    (W1 : Fin 6 → Fin 11 → EReal) (b1 g1 be1 : Fin 6 → EReal)
    (W2 : Fin 11 → Fin 6 → EReal) (b2 g2 be2 : Fin 11 → EReal)
    (W3 : Fin 16 → Fin 11 → EReal) (b3 g3 be3 : Fin 16 → EReal)
    (x : Fin 16 → EReal) : Fin 16 → EReal :=
  layer c16 ceps czero W3 b3 g3 be3
    (layer c11 ceps czero W2 b2 g2 be2
      (layer c6 ceps czero W1 b1 g1 be1
        (layer c11 ceps czero W0 b0 g0 be0 x)))

open Idealize.ShloMosaic.ValueIdx in
/-- The result array [2048, 16, 2048] as one function of the eighteen argument arrays: entry (b, s, c) is entry s of
    the network applied to the row j ↦ a0 (b, j, c) + a1 (b, j, c), with weights W (o, j) and the bias, scale and shift
    vectors read at o. -/
def outArr (a0 a1 : (⟨3, ![2048, 16, 2048]⟩ : Shape).Idx → EReal)
    (W0 : (⟨2, ![11, 16]⟩ : Shape).Idx → EReal) (B0 G0 E0 : (⟨1, ![11]⟩ : Shape).Idx → EReal)
    (W1 : (⟨2, ![6, 11]⟩ : Shape).Idx → EReal) (B1 G1 E1 : (⟨1, ![6]⟩ : Shape).Idx → EReal)
    (W2 : (⟨2, ![11, 6]⟩ : Shape).Idx → EReal) (B2 G2 E2 : (⟨1, ![11]⟩ : Shape).Idx → EReal)
    (W3 : (⟨2, ![16, 11]⟩ : Shape).Idx → EReal) (B3 G3 E3 : (⟨1, ![16]⟩ : Shape).Idx → EReal) :
    (⟨3, ![2048, 16, 2048]⟩ : Shape).Idx → EReal :=
  fun i => net (fun o j => W0 (ix2 o j)) (fun o => B0 (ix1 o)) (fun o => G0 (ix1 o)) (fun o => E0 (ix1 o))
    (fun o j => W1 (ix2 o j)) (fun o => B1 (ix1 o)) (fun o => G1 (ix1 o)) (fun o => E1 (ix1 o))
    (fun o j => W2 (ix2 o j)) (fun o => B2 (ix1 o)) (fun o => G2 (ix1 o)) (fun o => E2 (ix1 o))
    (fun o j => W3 (ix2 o j)) (fun o => B3 (ix1 o)) (fun o => G3 (ix1 o)) (fun o => E3 (ix1 o))
    (fun j => a0 (ix3 (i 0) j (i 2)) + a1 (ix3 (i 0) j (i 2))) (i 1)

open Idealize.ShloMosaic.ValueIdx in
/-- The result array at an index given by its coordinates. -/
theorem outArr_ix3 (a0 a1 : (⟨3, ![2048, 16, 2048]⟩ : Shape).Idx → EReal)
    (W0 : (⟨2, ![11, 16]⟩ : Shape).Idx → EReal) (B0 G0 E0 : (⟨1, ![11]⟩ : Shape).Idx → EReal)
    (W1 : (⟨2, ![6, 11]⟩ : Shape).Idx → EReal) (B1 G1 E1 : (⟨1, ![6]⟩ : Shape).Idx → EReal)
    (W2 : (⟨2, ![11, 6]⟩ : Shape).Idx → EReal) (B2 G2 E2 : (⟨1, ![11]⟩ : Shape).Idx → EReal)
    (W3 : (⟨2, ![16, 11]⟩ : Shape).Idx → EReal) (B3 G3 E3 : (⟨1, ![16]⟩ : Shape).Idx → EReal)
    (b : Fin 2048) (s : Fin 16) (c : Fin 2048) :
    outArr a0 a1 W0 B0 G0 E0 W1 B1 G1 E1 W2 B2 G2 E2 W3 B3 G3 E3 (ix3 b s c)
      = net (fun o j => W0 (ix2 o j)) (fun o => B0 (ix1 o)) (fun o => G0 (ix1 o)) (fun o => E0 (ix1 o))
          (fun o j => W1 (ix2 o j)) (fun o => B1 (ix1 o)) (fun o => G1 (ix1 o)) (fun o => E1 (ix1 o))
          (fun o j => W2 (ix2 o j)) (fun o => B2 (ix1 o)) (fun o => G2 (ix1 o)) (fun o => E2 (ix1 o))
          (fun o j => W3 (ix2 o j)) (fun o => B3 (ix1 o)) (fun o => G3 (ix1 o)) (fun o => E3 (ix1 o))
          (fun j => a0 (ix3 b j c) + a1 (ix3 b j c)) s := rfl

end Cert.RowNet

end
-- ==== Proof.KernelRows.lean ====
/-
  What the kernel's body stores, entry by entry.

  The body adds its two input blocks [256, 16, 256], moves the sequence axis (length 16) last, runs the four
  layers on the stack [256, 256, ·] of rows, and moves the axis back. So the entry (p, s, q) of the stored
  block is entry s of the network applied to the row j ↦ x0 (p, j, q) + x1 (p, j, q).
-/
import proofs.«126905_j57784490000583_1_alg».proof.Proof.Gen.KernelIdeal.Skeleton
import proofs.«126905_j57784490000583_1_alg».proof.Proof.KernelMatmul
import proofs.«126905_j57784490000583_1_alg».proof.Proof.Net

noncomputable section

namespace Cert.KernelIdeal.Rows

open Cert.KernelIdeal Cert.KernelIdeal.Gen Cert Idealize.ShloMosaic Idealize.ShloMosaic.ValueIdx

set_option maxRecDepth 65536 in
/-- The stored value is the transposed sum pushed through the four layers and transposed back: the printed
    statements, regrouped layer by layer. -/
theorem body_eq (x0 x1 : FVec Ideal S256x16x256 .f32) (w0 : FVec Ideal S11x16 .f32) (b0 g0 e0 : FVec Ideal S11 .f32)
    (w1 : FVec Ideal S6x11 .f32) (b1 g1 e1 : FVec Ideal S6 .f32) (w2 : FVec Ideal S11x6 .f32) (b2 g2 e2 : FVec Ideal S11 .f32)
    (w3 : FVec Ideal S16x11 .f32) (b3 g3 e3 : FVec Ideal S16 .f32) :
    k0_pay1 g3 e3 (k0_pay5 w2 b2 g2 e2 (k0_pay4 (k0_pay2 x0 x1 w0 b0 g0 e0) (k0_pay3 (F := Ideal)) w1 b1 g1 e1) w3 b3) (k0_pay6 w2 b2 g2 e2 (k0_pay4 (k0_pay2 x0 x1 w0 b0 g0 e0) (k0_pay3 (F := Ideal)) w1 b1 g1 e1) w3 b3) (Scalar.ofBits .f32 0x41800000#32)
      = transpose S256x16x256 [0, 2, 1]
          (maximumf (RowNet.kNorm reduces_S256x256x16_S256x256 (.inl rfl) rfl shapeCasts_S256x256_S256x256x1 broadcasts_S256x256x1_S256x256x16 shapeCasts_S16_S1x1x16 broadcasts_S1x1x16_S256x256x16 0x41800000#32 0x3727C5AC#32 (RowNet.kLin dot_S65536x11_S11x16_S65536x16_1_0_0_1_n_n shapeCasts_S256x256x11_S65536x11 transposes_S16x11_p1_0_S11x16 shapeCasts_S16_S1x16 broadcasts_S1x16_S65536x16 shapeCasts_S65536x16_S256x256x16 (maximumf (RowNet.kNorm reduces_S256x256x11_S256x256 (.inl rfl) rfl shapeCasts_S256x256_S256x256x1 broadcasts_S256x256x1_S256x256x11 shapeCasts_S11_S1x1x11 broadcasts_S1x1x11_S256x256x11 0x41300000#32 0x3727C5AC#32 (RowNet.kLin dot_S65536x6_S6x11_S65536x11_1_0_0_1_n_n shapeCasts_S256x256x6_S65536x6 transposes_S11x6_p1_0_S6x11 shapeCasts_S11_S1x11 broadcasts_S1x11_S65536x11 shapeCasts_S65536x11_S256x256x11 (maximumf (RowNet.kNorm reduces_S256x256x6_S256x256 (.inl rfl) rfl shapeCasts_S256x256_S256x256x1 broadcasts_S256x256x1_S256x256x6 shapeCasts_S6_S1x1x6 broadcasts_S1x1x6_S256x256x6 0x40C00000#32 0x3727C5AC#32 (RowNet.kLin dot_S65536x11_S11x6_S65536x6_1_0_0_1_n_n shapeCasts_S256x256x11_S65536x11 transposes_S6x11_p1_0_S11x6 shapeCasts_S6_S1x6 broadcasts_S1x6_S65536x6 shapeCasts_S65536x6_S256x256x6 (maximumf (RowNet.kNorm reduces_S256x256x11_S256x256 (.inl rfl) rfl shapeCasts_S256x256_S256x256x1 broadcasts_S256x256x1_S256x256x11 shapeCasts_S11_S1x1x11 broadcasts_S1x1x11_S256x256x11 0x41300000#32 0x3727C5AC#32 (RowNet.kLin dot_S65536x16_S16x11_S65536x11_1_0_0_1_n_n shapeCasts_S256x256x16_S65536x16 transposes_S11x16_p1_0_S16x11 shapeCasts_S11_S1x11 broadcasts_S1x11_S65536x11 shapeCasts_S65536x11_S256x256x11 (transpose S256x256x16 [0, 2, 1] (addf x0 x1) transposes_S256x16x256_p0_2_1_S256x256x16) w0 b0) g0 e0) (broadcast S256x256x11 (Scalar.ofBits .f32 0x00000000#32))) w1 b1) g1 e1) (broadcast S256x256x6 (Scalar.ofBits .f32 0x00000000#32))) w2 b2) g2 e2) (broadcast S256x256x11 (Scalar.ofBits .f32 0x00000000#32))) w3 b3) g3 e3) (broadcast S256x256x16 (Scalar.ofBits .f32 0x00000000#32)))
          transposes_S256x256x16_p0_2_1_S256x16x256 := rfl

/-- Entry (p, s, q) of the stored value: the network on the row (p, ·, q) of the sum of the two input blocks. -/
theorem body_apply (x0 x1 : FVec Ideal S256x16x256 .f32) (w0 : FVec Ideal S11x16 .f32) (b0 g0 e0 : FVec Ideal S11 .f32)
    (w1 : FVec Ideal S6x11 .f32) (b1 g1 e1 : FVec Ideal S6 .f32) (w2 : FVec Ideal S11x6 .f32) (b2 g2 e2 : FVec Ideal S11 .f32)
    (w3 : FVec Ideal S16x11 .f32) (b3 g3 e3 : FVec Ideal S16 .f32)
    (p : Fin 256) (s : Fin 16) (q : Fin 256) :
    (k0_pay1 g3 e3 (k0_pay5 w2 b2 g2 e2 (k0_pay4 (k0_pay2 x0 x1 w0 b0 g0 e0) (k0_pay3 (F := Ideal)) w1 b1 g1 e1) w3 b3) (k0_pay6 w2 b2 g2 e2 (k0_pay4 (k0_pay2 x0 x1 w0 b0 g0 e0) (k0_pay3 (F := Ideal)) w1 b1 g1 e1) w3 b3) (Scalar.ofBits .f32 0x41800000#32)) (ix3 p s q)
      = RowNet.net (fun o j => w0 (ix2 o j)) (fun o => b0 (ix1 o)) (fun o => g0 (ix1 o)) (fun o => e0 (ix1 o))
          (fun o j => w1 (ix2 o j)) (fun o => b1 (ix1 o)) (fun o => g1 (ix1 o)) (fun o => e1 (ix1 o))
          (fun o j => w2 (ix2 o j)) (fun o => b2 (ix1 o)) (fun o => g2 (ix1 o)) (fun o => e2 (ix1 o))
          (fun o j => w3 (ix2 o j)) (fun o => b3 (ix1 o)) (fun o => g3 (ix1 o)) (fun o => e3 (ix1 o))
          (fun j => x0 (ix3 p j q) + x1 (ix3 p j q)) s := by
  rw [body_eq, transpose_ix3_021_apply]
  unfold RowNet.net
  have h0 : (fun j : Fin 16 => (transpose S256x256x16 [0, 2, 1] (addf x0 x1) transposes_S256x16x256_p0_2_1_S256x256x16) (ix3 p q j)) = (fun j => x0 (ix3 p j q) + x1 (ix3 p j q) : Fin 16 → EReal) :=
    funext fun j => by rw [transpose_ix3_021_apply, addf_apply]
  have h1 := RowNet.kLayer_fun dot_S65536x16_S16x11_S65536x11_1_0_0_1_n_n shapeCasts_S256x256x16_S65536x16 transposes_S11x16_p1_0_S16x11 shapeCasts_S11_S1x11 broadcasts_S1x11_S65536x11 shapeCasts_S65536x11_S256x256x11 reduces_S256x256x11_S256x256 (.inl rfl) rfl shapeCasts_S256x256_S256x256x1 broadcasts_S256x256x1_S256x256x11 shapeCasts_S11_S1x1x11 broadcasts_S1x1x11_S256x256x11 0x41300000#32 0x3727C5AC#32 (transpose S256x256x16 [0, 2, 1] (addf x0 x1) transposes_S256x16x256_p0_2_1_S256x256x16) w0 b0 g0 e0 rfl mm1 p q
  have h2 := RowNet.kLayer_fun dot_S65536x11_S11x6_S65536x6_1_0_0_1_n_n shapeCasts_S256x256x11_S65536x11 transposes_S6x11_p1_0_S11x6 shapeCasts_S6_S1x6 broadcasts_S1x6_S65536x6 shapeCasts_S65536x6_S256x256x6 reduces_S256x256x6_S256x256 (.inl rfl) rfl shapeCasts_S256x256_S256x256x1 broadcasts_S256x256x1_S256x256x6 shapeCasts_S6_S1x1x6 broadcasts_S1x1x6_S256x256x6 0x40C00000#32 0x3727C5AC#32 (maximumf (RowNet.kNorm reduces_S256x256x11_S256x256 (.inl rfl) rfl shapeCasts_S256x256_S256x256x1 broadcasts_S256x256x1_S256x256x11 shapeCasts_S11_S1x1x11 broadcasts_S1x1x11_S256x256x11 0x41300000#32 0x3727C5AC#32 (RowNet.kLin dot_S65536x16_S16x11_S65536x11_1_0_0_1_n_n shapeCasts_S256x256x16_S65536x16 transposes_S11x16_p1_0_S16x11 shapeCasts_S11_S1x11 broadcasts_S1x11_S65536x11 shapeCasts_S65536x11_S256x256x11 (transpose S256x256x16 [0, 2, 1] (addf x0 x1) transposes_S256x16x256_p0_2_1_S256x256x16) w0 b0) g0 e0) (broadcast S256x256x11 (Scalar.ofBits .f32 0x00000000#32))) w1 b1 g1 e1 rfl mm2 p q
  have h3 := RowNet.kLayer_fun dot_S65536x6_S6x11_S65536x11_1_0_0_1_n_n shapeCasts_S256x256x6_S65536x6 transposes_S11x6_p1_0_S6x11 shapeCasts_S11_S1x11 broadcasts_S1x11_S65536x11 shapeCasts_S65536x11_S256x256x11 reduces_S256x256x11_S256x256 (.inl rfl) rfl shapeCasts_S256x256_S256x256x1 broadcasts_S256x256x1_S256x256x11 shapeCasts_S11_S1x1x11 broadcasts_S1x1x11_S256x256x11 0x41300000#32 0x3727C5AC#32 (maximumf (RowNet.kNorm reduces_S256x256x6_S256x256 (.inl rfl) rfl shapeCasts_S256x256_S256x256x1 broadcasts_S256x256x1_S256x256x6 shapeCasts_S6_S1x1x6 broadcasts_S1x1x6_S256x256x6 0x40C00000#32 0x3727C5AC#32 (RowNet.kLin dot_S65536x11_S11x6_S65536x6_1_0_0_1_n_n shapeCasts_S256x256x11_S65536x11 transposes_S6x11_p1_0_S11x6 shapeCasts_S6_S1x6 broadcasts_S1x6_S65536x6 shapeCasts_S65536x6_S256x256x6 (maximumf (RowNet.kNorm reduces_S256x256x11_S256x256 (.inl rfl) rfl shapeCasts_S256x256_S256x256x1 broadcasts_S256x256x1_S256x256x11 shapeCasts_S11_S1x1x11 broadcasts_S1x1x11_S256x256x11 0x41300000#32 0x3727C5AC#32 (RowNet.kLin dot_S65536x16_S16x11_S65536x11_1_0_0_1_n_n shapeCasts_S256x256x16_S65536x16 transposes_S11x16_p1_0_S16x11 shapeCasts_S11_S1x11 broadcasts_S1x11_S65536x11 shapeCasts_S65536x11_S256x256x11 (transpose S256x256x16 [0, 2, 1] (addf x0 x1) transposes_S256x16x256_p0_2_1_S256x256x16) w0 b0) g0 e0) (broadcast S256x256x11 (Scalar.ofBits .f32 0x00000000#32))) w1 b1) g1 e1) (broadcast S256x256x6 (Scalar.ofBits .f32 0x00000000#32))) w2 b2 g2 e2 rfl mm3 p q
  have h4 := RowNet.kLayer_fun dot_S65536x11_S11x16_S65536x16_1_0_0_1_n_n shapeCasts_S256x256x11_S65536x11 transposes_S16x11_p1_0_S11x16 shapeCasts_S16_S1x16 broadcasts_S1x16_S65536x16 shapeCasts_S65536x16_S256x256x16 reduces_S256x256x16_S256x256 (.inl rfl) rfl shapeCasts_S256x256_S256x256x1 broadcasts_S256x256x1_S256x256x16 shapeCasts_S16_S1x1x16 broadcasts_S1x1x16_S256x256x16 0x41800000#32 0x3727C5AC#32 (maximumf (RowNet.kNorm reduces_S256x256x11_S256x256 (.inl rfl) rfl shapeCasts_S256x256_S256x256x1 broadcasts_S256x256x1_S256x256x11 shapeCasts_S11_S1x1x11 broadcasts_S1x1x11_S256x256x11 0x41300000#32 0x3727C5AC#32 (RowNet.kLin dot_S65536x6_S6x11_S65536x11_1_0_0_1_n_n shapeCasts_S256x256x6_S65536x6 transposes_S11x6_p1_0_S6x11 shapeCasts_S11_S1x11 broadcasts_S1x11_S65536x11 shapeCasts_S65536x11_S256x256x11 (maximumf (RowNet.kNorm reduces_S256x256x6_S256x256 (.inl rfl) rfl shapeCasts_S256x256_S256x256x1 broadcasts_S256x256x1_S256x256x6 shapeCasts_S6_S1x1x6 broadcasts_S1x1x6_S256x256x6 0x40C00000#32 0x3727C5AC#32 (RowNet.kLin dot_S65536x11_S11x6_S65536x6_1_0_0_1_n_n shapeCasts_S256x256x11_S65536x11 transposes_S6x11_p1_0_S11x6 shapeCasts_S6_S1x6 broadcasts_S1x6_S65536x6 shapeCasts_S65536x6_S256x256x6 (maximumf (RowNet.kNorm reduces_S256x256x11_S256x256 (.inl rfl) rfl shapeCasts_S256x256_S256x256x1 broadcasts_S256x256x1_S256x256x11 shapeCasts_S11_S1x1x11 broadcasts_S1x1x11_S256x256x11 0x41300000#32 0x3727C5AC#32 (RowNet.kLin dot_S65536x16_S16x11_S65536x11_1_0_0_1_n_n shapeCasts_S256x256x16_S65536x16 transposes_S11x16_p1_0_S16x11 shapeCasts_S11_S1x11 broadcasts_S1x11_S65536x11 shapeCasts_S65536x11_S256x256x11 (transpose S256x256x16 [0, 2, 1] (addf x0 x1) transposes_S256x16x256_p0_2_1_S256x256x16) w0 b0) g0 e0) (broadcast S256x256x11 (Scalar.ofBits .f32 0x00000000#32))) w1 b1) g1 e1) (broadcast S256x256x6 (Scalar.ofBits .f32 0x00000000#32))) w2 b2) g2 e2) (broadcast S256x256x11 (Scalar.ofBits .f32 0x00000000#32))) w3 b3 g3 e3 rfl mm4 p q
  rw [h0] at h1
  rw [h1] at h2
  rw [h2] at h3
  rw [h3] at h4
  exact congrFun h4 s

end Cert.KernelIdeal.Rows

end
-- ==== Proof.KernelArray.lean ====
/-
  From the blocks to the whole result array.

  The grid has 8 × 8 points; point t owns the block of rows and columns numbered by its two coordinates
  (256 each) and the whole sequence axis, in the two large inputs and in the output alike, while the sixteen
  small arrays are staged whole at every point. So what point t writes back is block t of ONE function of the
  argument arrays (RowNet.outArr), and since the 64 blocks tile the output, the array ends holding that
  function.
-/
import proofs.«126905_j57784490000583_1_alg».proof.Proof.Gen.KernelIdeal.Value
import proofs.«126905_j57784490000583_1_alg».proof.Proof.KernelRows

noncomputable section

namespace Cert.KernelIdeal.Arr

open Cert.KernelIdeal Cert.KernelIdeal.Gen Cert Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: both large inputs move with the output on the row and column axes and
    stay at block 0 of the sequence axis; the output's block numbers are at most 7. -/
theorem idx_facts : ∀ t : Fin cfg0.N,
    win0_0.index t (0 : Fin 3) = win0_18.index t (0 : Fin 3) ∧ win0_0.index t (1 : Fin 3) = 0
    ∧ win0_0.index t (2 : Fin 3) = win0_18.index t (2 : Fin 3)
    ∧ win0_1.index t (0 : Fin 3) = win0_18.index t (0 : Fin 3) ∧ win0_1.index t (1 : Fin 3) = 0
    ∧ win0_1.index t (2 : Fin 3) = win0_18.index t (2 : Fin 3)
    ∧ win0_18.index t (1 : Fin 3) = 0 ∧ win0_18.index t (0 : Fin 3) ≤ 7 ∧ win0_18.index t (2 : Fin 3) ≤ 7 :=
  (by decide +kernel : ∀ t : Fin grid0.N, _)

/-- Every pair of block numbers is some point's. -/
theorem idx_onto : ∀ (q0 : Fin 8) (q2 : Fin 8), ∃ t : Fin cfg0.N, win0_18.index t = ![q0.val, 0, q2.val] :=
  (by decide +kernel : ∀ (q0 : Fin 8) (q2 : Fin 8), ∃ t : Fin grid0.N, win0_18.index t = ![q0.val, 0, q2.val])

/-- Input window 0's block at point t sits where the output's block does: rows and columns offset by the
    block's numbers times 256, the whole sequence axis. -/
theorem read0 (c : Dev nD) (t : Fin cfg0.N) (p : Fin 256) (j : Fin 16) (q : Fin 256) (P Q : Fin 2048)
    (hP : P.val = win0_18.index t (0 : Fin 3) * 256 + p.val) (hQ : Q.val = win0_18.index t (2 : Fin 3) * 256 + q.val) :
    iblk m c 0 t (ix3 p j q) = V m c main_arg0 (ix3 P j Q) := by
  show V m c main_arg0 (((cfg0.win 0).blk t).view.emb (ix3 p j q)) = _
  refine congrArg (V m c main_arg0) (funext fun a => Fin.ext ?_)
  obtain ⟨e0, e1, e2, e3, e4, e5, e6, e7, e8⟩ := idx_facts t
  match a with
  | ⟨0, _⟩ => show win0_0.index t (0 : Fin 3) * 256 + 1 * p.val = P.val; omega
  | ⟨1, _⟩ => show win0_0.index t (1 : Fin 3) * 16 + 1 * j.val = j.val; omega
  | ⟨2, _⟩ => show win0_0.index t (2 : Fin 3) * 256 + 1 * q.val = Q.val; omega

/-- Input window 1's block at point t sits where the output's block does: rows and columns offset by the
    block's numbers times 256, the whole sequence axis. -/
theorem read1 (c : Dev nD) (t : Fin cfg0.N) (p : Fin 256) (j : Fin 16) (q : Fin 256) (P Q : Fin 2048)
    (hP : P.val = win0_18.index t (0 : Fin 3) * 256 + p.val) (hQ : Q.val = win0_18.index t (2 : Fin 3) * 256 + q.val) :
    iblk m c 1 t (ix3 p j q) = V m c main_arg1 (ix3 P j Q) := by
  show V m c main_arg1 (((cfg0.win 1).blk t).view.emb (ix3 p j q)) = _
  refine congrArg (V m c main_arg1) (funext fun a => Fin.ext ?_)
  obtain ⟨e0, e1, e2, e3, e4, e5, e6, e7, e8⟩ := idx_facts t
  match a with
  | ⟨0, _⟩ => show win0_1.index t (0 : Fin 3) * 256 + 1 * p.val = P.val; omega
  | ⟨1, _⟩ => show win0_1.index t (1 : Fin 3) * 16 + 1 * j.val = j.val; omega
  | ⟨2, _⟩ => show win0_1.index t (2 : Fin 3) * 256 + 1 * q.val = Q.val; omega

theorem idxz2 : ∀ t : Fin cfg0.N, win0_2.index t = ![0, 0] :=
  (by decide +kernel : ∀ t : Fin grid0.N, win0_2.index t = ![0, 0])
/-- Window 2 always stages its whole array. -/
theorem read2 (c : Dev nD) (t : Fin cfg0.N) (o : Fin 11) (j : Fin 16) :
    iblk m c 2 t (ix2 o j) = V m c main_arg2 (ix2 o j) := by
  show V m c main_arg2 (((cfg0.win 2).blk t).view.emb (ix2 o j)) = _
  refine congrArg (V m c main_arg2) (funext fun a => Fin.ext ?_)
  have z0 : win0_2.index t (0 : Fin 2) = 0 := congrFun (idxz2 t) 0
  have z1 : win0_2.index t (1 : Fin 2) = 0 := congrFun (idxz2 t) 1
  match a with
  | ⟨0, _⟩ => show win0_2.index t (0 : Fin 2) * 11 + 1 * o.val = o.val; omega
  | ⟨1, _⟩ => show win0_2.index t (1 : Fin 2) * 16 + 1 * j.val = j.val; omega

theorem idxz3 : ∀ t : Fin cfg0.N, win0_3.index t = ![0] :=
  (by decide +kernel : ∀ t : Fin grid0.N, win0_3.index t = ![0])
/-- Window 3 always stages its whole array. -/
theorem read3 (c : Dev nD) (t : Fin cfg0.N) (o : Fin 11) :
    iblk m c 3 t (ix1 o) = V m c main_arg3 (ix1 o) := by
  show V m c main_arg3 (((cfg0.win 3).blk t).view.emb (ix1 o)) = _
  refine congrArg (V m c main_arg3) (funext fun a => Fin.ext ?_)
  have z0 : win0_3.index t (0 : Fin 1) = 0 := congrFun (idxz3 t) 0
  match a with
  | ⟨0, _⟩ => show win0_3.index t (0 : Fin 1) * 11 + 1 * o.val = o.val; omega

theorem idxz4 : ∀ t : Fin cfg0.N, win0_4.index t = ![0] :=
  (by decide +kernel : ∀ t : Fin grid0.N, win0_4.index t = ![0])
/-- Window 4 always stages its whole array. -/
theorem read4 (c : Dev nD) (t : Fin cfg0.N) (o : Fin 11) :
    iblk m c 4 t (ix1 o) = V m c main_arg4 (ix1 o) := by
  show V m c main_arg4 (((cfg0.win 4).blk t).view.emb (ix1 o)) = _
  refine congrArg (V m c main_arg4) (funext fun a => Fin.ext ?_)
  have z0 : win0_4.index t (0 : Fin 1) = 0 := congrFun (idxz4 t) 0
  match a with
  | ⟨0, _⟩ => show win0_4.index t (0 : Fin 1) * 11 + 1 * o.val = o.val; omega

theorem idxz5 : ∀ t : Fin cfg0.N, win0_5.index t = ![0] :=
  (by decide +kernel : ∀ t : Fin grid0.N, win0_5.index t = ![0])
/-- Window 5 always stages its whole array. -/
theorem read5 (c : Dev nD) (t : Fin cfg0.N) (o : Fin 11) :
    iblk m c 5 t (ix1 o) = V m c main_arg5 (ix1 o) := by
  show V m c main_arg5 (((cfg0.win 5).blk t).view.emb (ix1 o)) = _
  refine congrArg (V m c main_arg5) (funext fun a => Fin.ext ?_)
  have z0 : win0_5.index t (0 : Fin 1) = 0 := congrFun (idxz5 t) 0
  match a with
  | ⟨0, _⟩ => show win0_5.index t (0 : Fin 1) * 11 + 1 * o.val = o.val; omega

theorem idxz6 : ∀ t : Fin cfg0.N, win0_6.index t = ![0, 0] :=
  (by decide +kernel : ∀ t : Fin grid0.N, win0_6.index t = ![0, 0])
/-- Window 6 always stages its whole array. -/
theorem read6 (c : Dev nD) (t : Fin cfg0.N) (o : Fin 6) (j : Fin 11) :
    iblk m c 6 t (ix2 o j) = V m c main_arg6 (ix2 o j) := by
  show V m c main_arg6 (((cfg0.win 6).blk t).view.emb (ix2 o j)) = _
  refine congrArg (V m c main_arg6) (funext fun a => Fin.ext ?_)
  have z0 : win0_6.index t (0 : Fin 2) = 0 := congrFun (idxz6 t) 0
  have z1 : win0_6.index t (1 : Fin 2) = 0 := congrFun (idxz6 t) 1
  match a with
  | ⟨0, _⟩ => show win0_6.index t (0 : Fin 2) * 6 + 1 * o.val = o.val; omega
  | ⟨1, _⟩ => show win0_6.index t (1 : Fin 2) * 11 + 1 * j.val = j.val; omega

theorem idxz7 : ∀ t : Fin cfg0.N, win0_7.index t = ![0] :=
  (by decide +kernel : ∀ t : Fin grid0.N, win0_7.index t = ![0])
/-- Window 7 always stages its whole array. -/
theorem read7 (c : Dev nD) (t : Fin cfg0.N) (o : Fin 6) :
    iblk m c 7 t (ix1 o) = V m c main_arg7 (ix1 o) := by
  show V m c main_arg7 (((cfg0.win 7).blk t).view.emb (ix1 o)) = _
  refine congrArg (V m c main_arg7) (funext fun a => Fin.ext ?_)
  have z0 : win0_7.index t (0 : Fin 1) = 0 := congrFun (idxz7 t) 0
  match a with
  | ⟨0, _⟩ => show win0_7.index t (0 : Fin 1) * 6 + 1 * o.val = o.val; omega

theorem idxz8 : ∀ t : Fin cfg0.N, win0_8.index t = ![0] :=
  (by decide +kernel : ∀ t : Fin grid0.N, win0_8.index t = ![0])
/-- Window 8 always stages its whole array. -/
theorem read8 (c : Dev nD) (t : Fin cfg0.N) (o : Fin 6) :
    iblk m c 8 t (ix1 o) = V m c main_arg8 (ix1 o) := by
  show V m c main_arg8 (((cfg0.win 8).blk t).view.emb (ix1 o)) = _
  refine congrArg (V m c main_arg8) (funext fun a => Fin.ext ?_)
  have z0 : win0_8.index t (0 : Fin 1) = 0 := congrFun (idxz8 t) 0
  match a with
  | ⟨0, _⟩ => show win0_8.index t (0 : Fin 1) * 6 + 1 * o.val = o.val; omega

theorem idxz9 : ∀ t : Fin cfg0.N, win0_9.index t = ![0] :=
  (by decide +kernel : ∀ t : Fin grid0.N, win0_9.index t = ![0])
/-- Window 9 always stages its whole array. -/
theorem read9 (c : Dev nD) (t : Fin cfg0.N) (o : Fin 6) :
    iblk m c 9 t (ix1 o) = V m c main_arg9 (ix1 o) := by
  show V m c main_arg9 (((cfg0.win 9).blk t).view.emb (ix1 o)) = _
  refine congrArg (V m c main_arg9) (funext fun a => Fin.ext ?_)
  have z0 : win0_9.index t (0 : Fin 1) = 0 := congrFun (idxz9 t) 0
  match a with
  | ⟨0, _⟩ => show win0_9.index t (0 : Fin 1) * 6 + 1 * o.val = o.val; omega

theorem idxz10 : ∀ t : Fin cfg0.N, win0_10.index t = ![0, 0] :=
  (by decide +kernel : ∀ t : Fin grid0.N, win0_10.index t = ![0, 0])
/-- Window 10 always stages its whole array. -/
theorem read10 (c : Dev nD) (t : Fin cfg0.N) (o : Fin 11) (j : Fin 6) :
    iblk m c 10 t (ix2 o j) = V m c main_arg10 (ix2 o j) := by
  show V m c main_arg10 (((cfg0.win 10).blk t).view.emb (ix2 o j)) = _
  refine congrArg (V m c main_arg10) (funext fun a => Fin.ext ?_)
  have z0 : win0_10.index t (0 : Fin 2) = 0 := congrFun (idxz10 t) 0
  have z1 : win0_10.index t (1 : Fin 2) = 0 := congrFun (idxz10 t) 1
  match a with
  | ⟨0, _⟩ => show win0_10.index t (0 : Fin 2) * 11 + 1 * o.val = o.val; omega
  | ⟨1, _⟩ => show win0_10.index t (1 : Fin 2) * 6 + 1 * j.val = j.val; omega

theorem idxz11 : ∀ t : Fin cfg0.N, win0_11.index t = ![0] :=
  (by decide +kernel : ∀ t : Fin grid0.N, win0_11.index t = ![0])
/-- Window 11 always stages its whole array. -/
theorem read11 (c : Dev nD) (t : Fin cfg0.N) (o : Fin 11) :
    iblk m c 11 t (ix1 o) = V m c main_arg11 (ix1 o) := by
  show V m c main_arg11 (((cfg0.win 11).blk t).view.emb (ix1 o)) = _
  refine congrArg (V m c main_arg11) (funext fun a => Fin.ext ?_)
  have z0 : win0_11.index t (0 : Fin 1) = 0 := congrFun (idxz11 t) 0
  match a with
  | ⟨0, _⟩ => show win0_11.index t (0 : Fin 1) * 11 + 1 * o.val = o.val; omega

theorem idxz12 : ∀ t : Fin cfg0.N, win0_12.index t = ![0] :=
  (by decide +kernel : ∀ t : Fin grid0.N, win0_12.index t = ![0])
/-- Window 12 always stages its whole array. -/
theorem read12 (c : Dev nD) (t : Fin cfg0.N) (o : Fin 11) :
    iblk m c 12 t (ix1 o) = V m c main_arg12 (ix1 o) := by
  show V m c main_arg12 (((cfg0.win 12).blk t).view.emb (ix1 o)) = _
  refine congrArg (V m c main_arg12) (funext fun a => Fin.ext ?_)
  have z0 : win0_12.index t (0 : Fin 1) = 0 := congrFun (idxz12 t) 0
  match a with
  | ⟨0, _⟩ => show win0_12.index t (0 : Fin 1) * 11 + 1 * o.val = o.val; omega

theorem idxz13 : ∀ t : Fin cfg0.N, win0_13.index t = ![0] :=
  (by decide +kernel : ∀ t : Fin grid0.N, win0_13.index t = ![0])
/-- Window 13 always stages its whole array. -/
theorem read13 (c : Dev nD) (t : Fin cfg0.N) (o : Fin 11) :
    iblk m c 13 t (ix1 o) = V m c main_arg13 (ix1 o) := by
  show V m c main_arg13 (((cfg0.win 13).blk t).view.emb (ix1 o)) = _
  refine congrArg (V m c main_arg13) (funext fun a => Fin.ext ?_)
  have z0 : win0_13.index t (0 : Fin 1) = 0 := congrFun (idxz13 t) 0
  match a with
  | ⟨0, _⟩ => show win0_13.index t (0 : Fin 1) * 11 + 1 * o.val = o.val; omega

theorem idxz14 : ∀ t : Fin cfg0.N, win0_14.index t = ![0, 0] :=
  (by decide +kernel : ∀ t : Fin grid0.N, win0_14.index t = ![0, 0])
/-- Window 14 always stages its whole array. -/
theorem read14 (c : Dev nD) (t : Fin cfg0.N) (o : Fin 16) (j : Fin 11) :
    iblk m c 14 t (ix2 o j) = V m c main_arg14 (ix2 o j) := by
  show V m c main_arg14 (((cfg0.win 14).blk t).view.emb (ix2 o j)) = _
  refine congrArg (V m c main_arg14) (funext fun a => Fin.ext ?_)
  have z0 : win0_14.index t (0 : Fin 2) = 0 := congrFun (idxz14 t) 0
  have z1 : win0_14.index t (1 : Fin 2) = 0 := congrFun (idxz14 t) 1
  match a with
  | ⟨0, _⟩ => show win0_14.index t (0 : Fin 2) * 16 + 1 * o.val = o.val; omega
  | ⟨1, _⟩ => show win0_14.index t (1 : Fin 2) * 11 + 1 * j.val = j.val; omega

theorem idxz15 : ∀ t : Fin cfg0.N, win0_15.index t = ![0] :=
  (by decide +kernel : ∀ t : Fin grid0.N, win0_15.index t = ![0])
/-- Window 15 always stages its whole array. -/
theorem read15 (c : Dev nD) (t : Fin cfg0.N) (o : Fin 16) :
    iblk m c 15 t (ix1 o) = V m c main_arg15 (ix1 o) := by
  show V m c main_arg15 (((cfg0.win 15).blk t).view.emb (ix1 o)) = _
  refine congrArg (V m c main_arg15) (funext fun a => Fin.ext ?_)
  have z0 : win0_15.index t (0 : Fin 1) = 0 := congrFun (idxz15 t) 0
  match a with
  | ⟨0, _⟩ => show win0_15.index t (0 : Fin 1) * 16 + 1 * o.val = o.val; omega

theorem idxz16 : ∀ t : Fin cfg0.N, win0_16.index t = ![0] :=
  (by decide +kernel : ∀ t : Fin grid0.N, win0_16.index t = ![0])
/-- Window 16 always stages its whole array. -/
theorem read16 (c : Dev nD) (t : Fin cfg0.N) (o : Fin 16) :
    iblk m c 16 t (ix1 o) = V m c main_arg16 (ix1 o) := by
  show V m c main_arg16 (((cfg0.win 16).blk t).view.emb (ix1 o)) = _
  refine congrArg (V m c main_arg16) (funext fun a => Fin.ext ?_)
  have z0 : win0_16.index t (0 : Fin 1) = 0 := congrFun (idxz16 t) 0
  match a with
  | ⟨0, _⟩ => show win0_16.index t (0 : Fin 1) * 16 + 1 * o.val = o.val; omega

theorem idxz17 : ∀ t : Fin cfg0.N, win0_17.index t = ![0] :=
  (by decide +kernel : ∀ t : Fin grid0.N, win0_17.index t = ![0])
/-- Window 17 always stages its whole array. -/
theorem read17 (c : Dev nD) (t : Fin cfg0.N) (o : Fin 16) :
    iblk m c 17 t (ix1 o) = V m c main_arg17 (ix1 o) := by
  show V m c main_arg17 (((cfg0.win 17).blk t).view.emb (ix1 o)) = _
  refine congrArg (V m c main_arg17) (funext fun a => Fin.ext ?_)
  have z0 : win0_17.index t (0 : Fin 1) = 0 := congrFun (idxz17 t) 0
  match a with
  | ⟨0, _⟩ => show win0_17.index t (0 : Fin 1) * 16 + 1 * o.val = o.val; omega

/-- What point t writes back is block t of the one whole-array function. -/
theorem flushed_eq (c : Dev nD) (t : Fin cfg0.N) :
    (dats m 0 c).flushed 18 t
      = ((cfg0.win 18).blk t).view.read (Elt Ideal) (RowNet.outArr (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17)) := by
  rw [Value.flushed18]
  unfold out0_18
  rw [View.canon_unit_zero hz3]
  simp only [View.ld_unit_zero (S := S256x16x256) hz3, View.ld_unit_zero (S := S11x16) hz2, View.ld_unit_zero (S := S11) hz1,
    View.ld_unit_zero (S := S6x11) hz2, View.ld_unit_zero (S := S6) hz1, View.ld_unit_zero (S := S11x6) hz2,
    View.ld_unit_zero (S := S16x11) hz2, View.ld_unit_zero (S := S16) hz1]
  funext y
  revert y
  show ∀ y : S256x16x256.Idx, _
  intro y
  obtain ⟨p, s, q, rfl⟩ : ∃ (p : Fin 256) (s : Fin 16) (q : Fin 256), y = ix3 p s q := ⟨y 0, y 1, y 2, eq_ix3 y⟩
  obtain ⟨e0, e1, e2, e3, e4, e5, e6, e7, e8⟩ := idx_facts t
  have hP : win0_18.index t (0 : Fin 3) * 256 + p.val < 2048 := by have := p.isLt; omega
  have hQ : win0_18.index t (2 : Fin 3) * 256 + q.val < 2048 := by have := q.isLt; omega
  show (k0_pay1 (iblk m c 16 t) (iblk m c 17 t) (k0_pay5 (iblk m c 10 t) (iblk m c 11 t) (iblk m c 12 t) (iblk m c 13 t) (k0_pay4 (k0_pay2 (iblk m c 0 t) (iblk m c 1 t) (iblk m c 2 t) (iblk m c 3 t) (iblk m c 4 t) (iblk m c 5 t)) (k0_pay3 (F := Ideal)) (iblk m c 6 t) (iblk m c 7 t) (iblk m c 8 t) (iblk m c 9 t)) (iblk m c 14 t) (iblk m c 15 t)) (k0_pay6 (iblk m c 10 t) (iblk m c 11 t) (iblk m c 12 t) (iblk m c 13 t) (k0_pay4 (k0_pay2 (iblk m c 0 t) (iblk m c 1 t) (iblk m c 2 t) (iblk m c 3 t) (iblk m c 4 t) (iblk m c 5 t)) (k0_pay3 (F := Ideal)) (iblk m c 6 t) (iblk m c 7 t) (iblk m c 8 t) (iblk m c 9 t)) (iblk m c 14 t) (iblk m c 15 t)) (Scalar.ofBits .f32 0x41800000#32)) (ix3 p s q)
    = RowNet.outArr (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (((cfg0.win 18).blk t).view.emb (ix3 p s q))
  have hemb : ((cfg0.win 18).blk t).view.emb (ix3 p s q) = ix3 (⟨_, hP⟩ : Fin 2048) s (⟨_, hQ⟩ : Fin 2048) :=
    funext fun a => Fin.ext (by
      match a with
      | ⟨0, _⟩ => show win0_18.index t (0 : Fin 3) * 256 + 1 * p.val = win0_18.index t (0 : Fin 3) * 256 + p.val; omega
      | ⟨1, _⟩ => show win0_18.index t (1 : Fin 3) * 16 + 1 * s.val = s.val; omega
      | ⟨2, _⟩ => show win0_18.index t (2 : Fin 3) * 256 + 1 * q.val = win0_18.index t (2 : Fin 3) * 256 + q.val; omega)
  rw [hemb, RowNet.outArr_ix3, Rows.body_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) p s q]
  simp only [fun j => read0 m c t p j q ⟨_, hP⟩ ⟨_, hQ⟩ rfl rfl, fun j => read1 m c t p j q ⟨_, hP⟩ ⟨_, hQ⟩ rfl rfl,
    read2 m c t, read3 m c t, read4 m c t, read5 m c t, read6 m c t, read7 m c t, read8 m c t, read9 m c t, read10 m c t, read11 m c t, read12 m c t, read13 m c t, read14 m c t, read15 m c t, read16 m c t, read17 m c t]

/-- An index of the array is in point t's block iff each coordinate is in the block's range on its axis. -/
theorem mem_blk (t : Fin cfg0.N) (i : S2048x16x2048.Idx) :
    i ∈ ((cfg0.win 18).blk t).view.set ↔ ∀ a : Fin 3, win0_18.index t a * S256x16x256.size a ≤ (i a).val
      ∧ (i a).val < win0_18.index t a * S256x16x256.size a + S256x16x256.size a := by
  show i ∈ ((View.whole main_v0).slice (win0_18.rect t)).set ↔ _
  rw [View.set_slice_whole, Rect.mem_set_unit]
  exact Iff.rfl

/-- The 64 blocks tile the output: the point covering (b, s, c) is the one numbered (b / 256, c / 256). -/
theorem cover (i : S2048x16x2048.Idx) :
    ∃ t : Fin cfg0.N, (cfg0.win 18).flush t = true ∧ i ∈ ((cfg0.win 18).blk t).view.set := by
  have hi0 : (i 0).val < 2048 := (i 0).isLt
  have hi1 : (i 1).val < 16 := (i 1).isLt
  have hi2 : (i 2).val < 2048 := (i 2).isLt
  obtain ⟨t, ht⟩ := idx_onto ⟨(i 0).val / 256, by omega⟩ ⟨(i 2).val / 256, by omega⟩
  have q0 : win0_18.index t (0 : Fin 3) = (i 0).val / 256 := congrFun ht 0
  have q1 : win0_18.index t (1 : Fin 3) = 0 := congrFun ht 1
  have q2 : win0_18.index t (2 : Fin 3) = (i 2).val / 256 := congrFun ht 2
  refine ⟨t, flush0_18 t, ?_⟩
  rw [mem_blk]
  intro a
  match a with
  | ⟨0, _⟩ => show win0_18.index t (0 : Fin 3) * 256 ≤ (i 0).val ∧ (i 0).val < win0_18.index t (0 : Fin 3) * 256 + 256; omega
  | ⟨1, _⟩ => show win0_18.index t (1 : Fin 3) * 16 ≤ (i 1).val ∧ (i 1).val < win0_18.index t (1 : Fin 3) * 16 + 16; omega
  | ⟨2, _⟩ => show win0_18.index t (2 : Fin 3) * 256 ≤ (i 2).val ∧ (i 2).val < win0_18.index t (2 : Fin 3) * 256 + 256; omega

/-- The output array after the run is the one function of the argument arrays. -/
theorem final (c : Dev nD) :
    (dats m 0 c).arrAt 18 cfg0.N = RowNet.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  (dats m 0 c).arrAt_eq_of_cover 18 (RowNet.outArr (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17)) (fun t _ => flushed_eq m c t) cover

/-- The kernel's run read back: every weakly fair execution ends with the output array at the one whole-array
    function of the argument arrays, and the arguments unchanged. -/
theorem run : θ_run defs (onTc (τ := τ) (main (F := Ideal))) ⟨m, fun _ => 0, ρ⟩ fun r => ∀ c : Dev nD,
      r.2.mem ((c : Thread nD τ).loc main_v0) = RowNet.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final m c), (h c).2⟩) (Value.run_blocks m ρ)

end Cert.KernelIdeal.Arr

end
-- ==== Proof.RefRows.lean ====
/-
  What the reference computes, entry by entry.

  The reference adds its two large arguments [2048, 16, 2048], moves the sequence axis last, applies the four
  layers to the stack [2048, 2048, ·] of rows with plain array operations (a contraction with the weight matrix,
  sums along the last axis with kept dimensions, broadcasts), and moves the axis back. Each layer's result at
  (b, c, ·) is the layer function of its input at (b, c, ·); so the result at (b, s, c) is entry s of the network on
  the row j ↦ x0 (b, j, c) + x1 (b, j, c): the same whole-array function as the kernel's.
-/
import proofs.«126905_j57784490000583_1_alg».proof.Proof.RefReadP
import proofs.«126905_j57784490000583_1_alg».proof.Proof.Net

noncomputable section

namespace Cert.ReferenceIdeal.Rows

open Cert.ReferenceIdeal Cert.ReferenceIdeal.ReadP Cert Idealize.ShloMosaic Idealize.ShloMosaic.ValueIdx

/-! ### Layer 1: width 16 → 11 -/

theorem li2 (b c : Fin 2048) (o : Fin 11) (j : Fin 16) : lidx_main_v2 (ix3 b c o) j = ix3 b c j :=
  funext fun a => by match a with | ⟨0, _⟩ => rfl | ⟨1, _⟩ => rfl | ⟨2, _⟩ => rfl
theorem ri2 (b c : Fin 2048) (o : Fin 11) (j : Fin 16) : ridx_main_v2 (ix3 b c o) j = ix2 o j :=
  funext fun a => by match a with | ⟨0, _⟩ => rfl | ⟨1, _⟩ => rfl
theorem i3 (u v : Fin 1) (o : Fin 11) : idx_main_v3 (ix3 u v o) = ix1 o :=
  funext fun a => by match a with | ⟨0, _⟩ => rfl
theorem i24 (u v : Fin 1) (o : Fin 11) : idx_main_v24 (ix3 u v o) = ix1 o :=
  funext fun a => by match a with | ⟨0, _⟩ => rfl
theorem i27 (u v : Fin 1) (o : Fin 11) : idx_main_v27 (ix3 u v o) = ix1 o :=
  funext fun a => by match a with | ⟨0, _⟩ => rfl
theorem i4 (b c : Fin 2048) (o : Fin 11) : idx_main_v4 (ix3 b c o) = ix3 (0 : Fin 1) (0 : Fin 1) o :=
  funext fun a => by match a with | ⟨0, _⟩ => rfl | ⟨1, _⟩ => rfl | ⟨2, _⟩ => rfl
theorem i25 (b c : Fin 2048) (o : Fin 11) : idx_main_v25 (ix3 b c o) = ix3 (0 : Fin 1) (0 : Fin 1) o :=
  funext fun a => by match a with | ⟨0, _⟩ => rfl | ⟨1, _⟩ => rfl | ⟨2, _⟩ => rfl
theorem i28 (b c : Fin 2048) (o : Fin 11) : idx_main_v28 (ix3 b c o) = ix3 (0 : Fin 1) (0 : Fin 1) o :=
  funext fun a => by match a with | ⟨0, _⟩ => rfl | ⟨1, _⟩ => rfl | ⟨2, _⟩ => rfl
theorem i6 (b c : Fin 2048) (j : Fin 11) : idx_main_v6 (ix2 b c) j = ix3 b c j :=
  funext fun a => by match a with | ⟨0, _⟩ => rfl | ⟨1, _⟩ => rfl | ⟨2, _⟩ => rfl
theorem i13 (b c : Fin 2048) (j : Fin 11) : idx_main_v13 (ix2 b c) j = ix3 b c j :=
  funext fun a => by match a with | ⟨0, _⟩ => rfl | ⟨1, _⟩ => rfl | ⟨2, _⟩ => rfl
theorem i7 (b c : Fin 2048) (u : Fin 1) : idx_main_v7 (ix3 b c u) = ix2 b c :=
  funext fun a => by match a with | ⟨0, _⟩ => rfl | ⟨1, _⟩ => rfl
theorem i14 (b c : Fin 2048) (u : Fin 1) : idx_main_v14 (ix3 b c u) = ix2 b c :=
  funext fun a => by match a with | ⟨0, _⟩ => rfl | ⟨1, _⟩ => rfl
theorem i10 (b c : Fin 2048) (o : Fin 11) : idx_main_v10 (ix3 b c o) = ix3 b c (0 : Fin 1) :=
  funext fun a => by match a with | ⟨0, _⟩ => rfl | ⟨1, _⟩ => rfl | ⟨2, _⟩ => rfl
theorem i17 (b c : Fin 2048) (o : Fin 11) : idx_main_v17 (ix3 b c o) = ix3 b c (0 : Fin 1) :=
  funext fun a => by match a with | ⟨0, _⟩ => rfl | ⟨1, _⟩ => rfl | ⟨2, _⟩ => rfl
theorem i22 (b c : Fin 2048) (o : Fin 11) : idx_main_v22 (ix3 b c o) = ix3 b c (0 : Fin 1) :=
  funext fun a => by match a with | ⟨0, _⟩ => rfl | ⟨1, _⟩ => rfl | ⟨2, _⟩ => rfl

/-- Layer 1 of the reference, row by row: the entries (b, c, ·) of its result are the layer function of the row
    (b, c, ·) of its input. -/
theorem layer1 (x0 : (⟨S2048x16x2048, .f32⟩ : BufTy).Contents (Elt Ideal)) (x1 : (⟨S2048x16x2048, .f32⟩ : BufTy).Contents (Elt Ideal)) (x2 : (⟨S11x16, .f32⟩ : BufTy).Contents (Elt Ideal)) (x3 : (⟨S11, .f32⟩ : BufTy).Contents (Elt Ideal)) (x4 : (⟨S11, .f32⟩ : BufTy).Contents (Elt Ideal)) (x5 : (⟨S11, .f32⟩ : BufTy).Contents (Elt Ideal)) (b c : Fin 2048) :
    (fun o : Fin 11 => val_main_v30 (F := Ideal) x0 x1 x2 x3 x4 x5 (ix3 b c o))
      = RowNet.layer RowNet.c11 RowNet.ceps RowNet.czero (fun o j => x2 (ix2 o j)) (fun o => x3 (ix1 o)) (fun o => x4 (ix1 o))
          (fun o => x5 (ix1 o)) (fun j => val_main_v1 (F := Ideal) x0 x1 (ix3 b c j)) := by
  funext o
  unfold RowNet.layer RowNet.norm RowNet.lin
  simp only [val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_cst_apply, val_main_cst_0_apply, val_main_cst_1_apply, val_main_cst_2_apply, val_main_cst_3_apply, val_main_call0_cst_apply, val_main_call0_v0_apply,
    li2, ri2, i3, i24, i27, i4, i25, i28, i6, i13, i7, i14, i10, i17, i22,
    Ideal.addf_def, Ideal.subf_def, Ideal.mulf_def, Ideal.hostDivf_def, Ideal.maximumf_def, Ideal.hostUnary_rsqrt_def, Ideal.ofBits_def,
    RowNet.c11, RowNet.c6, RowNet.c16, RowNet.ceps, RowNet.czero, Ideal.ofBits_zero_f32, zero_add]

/-! ### Layer 2: width 11 → 6 -/

theorem li31 (b c : Fin 2048) (o : Fin 6) (j : Fin 11) : lidx_main_v31 (ix3 b c o) j = ix3 b c j :=
  funext fun a => by match a with | ⟨0, _⟩ => rfl | ⟨1, _⟩ => rfl | ⟨2, _⟩ => rfl
theorem ri31 (b c : Fin 2048) (o : Fin 6) (j : Fin 11) : ridx_main_v31 (ix3 b c o) j = ix2 o j :=
  funext fun a => by match a with | ⟨0, _⟩ => rfl | ⟨1, _⟩ => rfl
theorem i32 (u v : Fin 1) (o : Fin 6) : idx_main_v32 (ix3 u v o) = ix1 o :=
  funext fun a => by match a with | ⟨0, _⟩ => rfl
theorem i53 (u v : Fin 1) (o : Fin 6) : idx_main_v53 (ix3 u v o) = ix1 o :=
  funext fun a => by match a with | ⟨0, _⟩ => rfl
theorem i56 (u v : Fin 1) (o : Fin 6) : idx_main_v56 (ix3 u v o) = ix1 o :=
  funext fun a => by match a with | ⟨0, _⟩ => rfl
theorem i33 (b c : Fin 2048) (o : Fin 6) : idx_main_v33 (ix3 b c o) = ix3 (0 : Fin 1) (0 : Fin 1) o :=
  funext fun a => by match a with | ⟨0, _⟩ => rfl | ⟨1, _⟩ => rfl | ⟨2, _⟩ => rfl
theorem i54 (b c : Fin 2048) (o : Fin 6) : idx_main_v54 (ix3 b c o) = ix3 (0 : Fin 1) (0 : Fin 1) o :=
  funext fun a => by match a with | ⟨0, _⟩ => rfl | ⟨1, _⟩ => rfl | ⟨2, _⟩ => rfl
theorem i57 (b c : Fin 2048) (o : Fin 6) : idx_main_v57 (ix3 b c o) = ix3 (0 : Fin 1) (0 : Fin 1) o :=
  funext fun a => by match a with | ⟨0, _⟩ => rfl | ⟨1, _⟩ => rfl | ⟨2, _⟩ => rfl
theorem i35 (b c : Fin 2048) (j : Fin 6) : idx_main_v35 (ix2 b c) j = ix3 b c j :=
  funext fun a => by match a with | ⟨0, _⟩ => rfl | ⟨1, _⟩ => rfl | ⟨2, _⟩ => rfl
theorem i42 (b c : Fin 2048) (j : Fin 6) : idx_main_v42 (ix2 b c) j = ix3 b c j :=
  funext fun a => by match a with | ⟨0, _⟩ => rfl | ⟨1, _⟩ => rfl | ⟨2, _⟩ => rfl
theorem i36 (b c : Fin 2048) (u : Fin 1) : idx_main_v36 (ix3 b c u) = ix2 b c :=
  funext fun a => by match a with | ⟨0, _⟩ => rfl | ⟨1, _⟩ => rfl
theorem i43 (b c : Fin 2048) (u : Fin 1) : idx_main_v43 (ix3 b c u) = ix2 b c :=
  funext fun a => by match a with | ⟨0, _⟩ => rfl | ⟨1, _⟩ => rfl
theorem i39 (b c : Fin 2048) (o : Fin 6) : idx_main_v39 (ix3 b c o) = ix3 b c (0 : Fin 1) :=
  funext fun a => by match a with | ⟨0, _⟩ => rfl | ⟨1, _⟩ => rfl | ⟨2, _⟩ => rfl
theorem i46 (b c : Fin 2048) (o : Fin 6) : idx_main_v46 (ix3 b c o) = ix3 b c (0 : Fin 1) :=
  funext fun a => by match a with | ⟨0, _⟩ => rfl | ⟨1, _⟩ => rfl | ⟨2, _⟩ => rfl
theorem i51 (b c : Fin 2048) (o : Fin 6) : idx_main_v51 (ix3 b c o) = ix3 b c (0 : Fin 1) :=
  funext fun a => by match a with | ⟨0, _⟩ => rfl | ⟨1, _⟩ => rfl | ⟨2, _⟩ => rfl

/-- Layer 2 of the reference, row by row: the entries (b, c, ·) of its result are the layer function of the row
    (b, c, ·) of its input. -/
theorem layer2 (x0 : (⟨S2048x16x2048, .f32⟩ : BufTy).Contents (Elt Ideal)) (x1 : (⟨S2048x16x2048, .f32⟩ : BufTy).Contents (Elt Ideal)) (x2 : (⟨S11x16, .f32⟩ : BufTy).Contents (Elt Ideal)) (x3 : (⟨S11, .f32⟩ : BufTy).Contents (Elt Ideal)) (x4 : (⟨S11, .f32⟩ : BufTy).Contents (Elt Ideal)) (x5 : (⟨S11, .f32⟩ : BufTy).Contents (Elt Ideal)) (x6 : (⟨S6x11, .f32⟩ : BufTy).Contents (Elt Ideal)) (x7 : (⟨S6, .f32⟩ : BufTy).Contents (Elt Ideal)) (x8 : (⟨S6, .f32⟩ : BufTy).Contents (Elt Ideal)) (x9 : (⟨S6, .f32⟩ : BufTy).Contents (Elt Ideal)) (b c : Fin 2048) :
    (fun o : Fin 6 => val_main_v59 (F := Ideal) x0 x1 x2 x3 x4 x5 x6 x7 x8 x9 (ix3 b c o))
      = RowNet.layer RowNet.c6 RowNet.ceps RowNet.czero (fun o j => x6 (ix2 o j)) (fun o => x7 (ix1 o)) (fun o => x8 (ix1 o))
          (fun o => x9 (ix1 o)) (fun j => val_main_v30 (F := Ideal) x0 x1 x2 x3 x4 x5 (ix3 b c j)) := by
  funext o
  unfold RowNet.layer RowNet.norm RowNet.lin
  simp only [val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_cst_4_apply, val_main_cst_5_apply, val_main_cst_6_apply, val_main_cst_7_apply, val_main_cst_8_apply, val_main_call1_cst_apply, val_main_call1_v0_apply,
    li31, ri31, i32, i53, i56, i33, i54, i57, i35, i42, i36, i43, i39, i46, i51,
    Ideal.addf_def, Ideal.subf_def, Ideal.mulf_def, Ideal.hostDivf_def, Ideal.maximumf_def, Ideal.hostUnary_rsqrt_def, Ideal.ofBits_def,
    RowNet.c11, RowNet.c6, RowNet.c16, RowNet.ceps, RowNet.czero, Ideal.ofBits_zero_f32, zero_add]

/-! ### Layer 3: width 6 → 11 -/

theorem li60 (b c : Fin 2048) (o : Fin 11) (j : Fin 6) : lidx_main_v60 (ix3 b c o) j = ix3 b c j :=
  funext fun a => by match a with | ⟨0, _⟩ => rfl | ⟨1, _⟩ => rfl | ⟨2, _⟩ => rfl
theorem ri60 (b c : Fin 2048) (o : Fin 11) (j : Fin 6) : ridx_main_v60 (ix3 b c o) j = ix2 o j :=
  funext fun a => by match a with | ⟨0, _⟩ => rfl | ⟨1, _⟩ => rfl
theorem i61 (u v : Fin 1) (o : Fin 11) : idx_main_v61 (ix3 u v o) = ix1 o :=
  funext fun a => by match a with | ⟨0, _⟩ => rfl
theorem i82 (u v : Fin 1) (o : Fin 11) : idx_main_v82 (ix3 u v o) = ix1 o :=
  funext fun a => by match a with | ⟨0, _⟩ => rfl
theorem i85 (u v : Fin 1) (o : Fin 11) : idx_main_v85 (ix3 u v o) = ix1 o :=
  funext fun a => by match a with | ⟨0, _⟩ => rfl
theorem i62 (b c : Fin 2048) (o : Fin 11) : idx_main_v62 (ix3 b c o) = ix3 (0 : Fin 1) (0 : Fin 1) o :=
  funext fun a => by match a with | ⟨0, _⟩ => rfl | ⟨1, _⟩ => rfl | ⟨2, _⟩ => rfl
theorem i83 (b c : Fin 2048) (o : Fin 11) : idx_main_v83 (ix3 b c o) = ix3 (0 : Fin 1) (0 : Fin 1) o :=
  funext fun a => by match a with | ⟨0, _⟩ => rfl | ⟨1, _⟩ => rfl | ⟨2, _⟩ => rfl
theorem i86 (b c : Fin 2048) (o : Fin 11) : idx_main_v86 (ix3 b c o) = ix3 (0 : Fin 1) (0 : Fin 1) o :=
  funext fun a => by match a with | ⟨0, _⟩ => rfl | ⟨1, _⟩ => rfl | ⟨2, _⟩ => rfl
theorem i64 (b c : Fin 2048) (j : Fin 11) : idx_main_v64 (ix2 b c) j = ix3 b c j :=
  funext fun a => by match a with | ⟨0, _⟩ => rfl | ⟨1, _⟩ => rfl | ⟨2, _⟩ => rfl
theorem i71 (b c : Fin 2048) (j : Fin 11) : idx_main_v71 (ix2 b c) j = ix3 b c j :=
  funext fun a => by match a with | ⟨0, _⟩ => rfl | ⟨1, _⟩ => rfl | ⟨2, _⟩ => rfl
theorem i65 (b c : Fin 2048) (u : Fin 1) : idx_main_v65 (ix3 b c u) = ix2 b c :=
  funext fun a => by match a with | ⟨0, _⟩ => rfl | ⟨1, _⟩ => rfl
theorem i72 (b c : Fin 2048) (u : Fin 1) : idx_main_v72 (ix3 b c u) = ix2 b c :=
  funext fun a => by match a with | ⟨0, _⟩ => rfl | ⟨1, _⟩ => rfl
theorem i68 (b c : Fin 2048) (o : Fin 11) : idx_main_v68 (ix3 b c o) = ix3 b c (0 : Fin 1) :=
  funext fun a => by match a with | ⟨0, _⟩ => rfl | ⟨1, _⟩ => rfl | ⟨2, _⟩ => rfl
theorem i75 (b c : Fin 2048) (o : Fin 11) : idx_main_v75 (ix3 b c o) = ix3 b c (0 : Fin 1) :=
  funext fun a => by match a with | ⟨0, _⟩ => rfl | ⟨1, _⟩ => rfl | ⟨2, _⟩ => rfl
theorem i80 (b c : Fin 2048) (o : Fin 11) : idx_main_v80 (ix3 b c o) = ix3 b c (0 : Fin 1) :=
  funext fun a => by match a with | ⟨0, _⟩ => rfl | ⟨1, _⟩ => rfl | ⟨2, _⟩ => rfl

/-- Layer 3 of the reference, row by row: the entries (b, c, ·) of its result are the layer function of the row
    (b, c, ·) of its input. -/
theorem layer3 (x0 : (⟨S2048x16x2048, .f32⟩ : BufTy).Contents (Elt Ideal)) (x1 : (⟨S2048x16x2048, .f32⟩ : BufTy).Contents (Elt Ideal)) (x2 : (⟨S11x16, .f32⟩ : BufTy).Contents (Elt Ideal)) (x3 : (⟨S11, .f32⟩ : BufTy).Contents (Elt Ideal)) (x4 : (⟨S11, .f32⟩ : BufTy).Contents (Elt Ideal)) (x5 : (⟨S11, .f32⟩ : BufTy).Contents (Elt Ideal)) (x6 : (⟨S6x11, .f32⟩ : BufTy).Contents (Elt Ideal)) (x7 : (⟨S6, .f32⟩ : BufTy).Contents (Elt Ideal)) (x8 : (⟨S6, .f32⟩ : BufTy).Contents (Elt Ideal)) (x9 : (⟨S6, .f32⟩ : BufTy).Contents (Elt Ideal)) (x10 : (⟨S11x6, .f32⟩ : BufTy).Contents (Elt Ideal)) (x11 : (⟨S11, .f32⟩ : BufTy).Contents (Elt Ideal)) (x12 : (⟨S11, .f32⟩ : BufTy).Contents (Elt Ideal)) (x13 : (⟨S11, .f32⟩ : BufTy).Contents (Elt Ideal)) (b c : Fin 2048) :
    (fun o : Fin 11 => val_main_v88 (F := Ideal) x0 x1 x2 x3 x4 x5 x6 x7 x8 x9 x10 x11 x12 x13 (ix3 b c o))
      = RowNet.layer RowNet.c11 RowNet.ceps RowNet.czero (fun o j => x10 (ix2 o j)) (fun o => x11 (ix1 o)) (fun o => x12 (ix1 o))
          (fun o => x13 (ix1 o)) (fun j => val_main_v59 (F := Ideal) x0 x1 x2 x3 x4 x5 x6 x7 x8 x9 (ix3 b c j)) := by
  funext o
  unfold RowNet.layer RowNet.norm RowNet.lin
  simp only [val_main_v88_apply, val_main_v87_apply, val_main_v86_apply, val_main_v85_apply, val_main_v84_apply, val_main_v83_apply, val_main_v82_apply, val_main_v81_apply, val_main_v80_apply, val_main_v79_apply, val_main_v78_apply, val_main_v77_apply, val_main_v76_apply, val_main_v75_apply, val_main_v74_apply, val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_cst_9_apply, val_main_cst_10_apply, val_main_cst_11_apply, val_main_cst_12_apply, val_main_cst_13_apply, val_main_call2_cst_apply, val_main_call2_v0_apply,
    li60, ri60, i61, i82, i85, i62, i83, i86, i64, i71, i65, i72, i68, i75, i80,
    Ideal.addf_def, Ideal.subf_def, Ideal.mulf_def, Ideal.hostDivf_def, Ideal.maximumf_def, Ideal.hostUnary_rsqrt_def, Ideal.ofBits_def,
    RowNet.c11, RowNet.c6, RowNet.c16, RowNet.ceps, RowNet.czero, Ideal.ofBits_zero_f32, zero_add]

/-! ### Layer 4: width 11 → 16 -/

theorem li89 (b c : Fin 2048) (o : Fin 16) (j : Fin 11) : lidx_main_v89 (ix3 b c o) j = ix3 b c j :=
  funext fun a => by match a with | ⟨0, _⟩ => rfl | ⟨1, _⟩ => rfl | ⟨2, _⟩ => rfl
theorem ri89 (b c : Fin 2048) (o : Fin 16) (j : Fin 11) : ridx_main_v89 (ix3 b c o) j = ix2 o j :=
  funext fun a => by match a with | ⟨0, _⟩ => rfl | ⟨1, _⟩ => rfl
theorem i90 (u v : Fin 1) (o : Fin 16) : idx_main_v90 (ix3 u v o) = ix1 o :=
  funext fun a => by match a with | ⟨0, _⟩ => rfl
theorem i111 (u v : Fin 1) (o : Fin 16) : idx_main_v111 (ix3 u v o) = ix1 o :=
  funext fun a => by match a with | ⟨0, _⟩ => rfl
theorem i114 (u v : Fin 1) (o : Fin 16) : idx_main_v114 (ix3 u v o) = ix1 o :=
  funext fun a => by match a with | ⟨0, _⟩ => rfl
theorem i91 (b c : Fin 2048) (o : Fin 16) : idx_main_v91 (ix3 b c o) = ix3 (0 : Fin 1) (0 : Fin 1) o :=
  funext fun a => by match a with | ⟨0, _⟩ => rfl | ⟨1, _⟩ => rfl | ⟨2, _⟩ => rfl
theorem i112 (b c : Fin 2048) (o : Fin 16) : idx_main_v112 (ix3 b c o) = ix3 (0 : Fin 1) (0 : Fin 1) o :=
  funext fun a => by match a with | ⟨0, _⟩ => rfl | ⟨1, _⟩ => rfl | ⟨2, _⟩ => rfl
theorem i115 (b c : Fin 2048) (o : Fin 16) : idx_main_v115 (ix3 b c o) = ix3 (0 : Fin 1) (0 : Fin 1) o :=
  funext fun a => by match a with | ⟨0, _⟩ => rfl | ⟨1, _⟩ => rfl | ⟨2, _⟩ => rfl
theorem i93 (b c : Fin 2048) (j : Fin 16) : idx_main_v93 (ix2 b c) j = ix3 b c j :=
  funext fun a => by match a with | ⟨0, _⟩ => rfl | ⟨1, _⟩ => rfl | ⟨2, _⟩ => rfl
theorem i100 (b c : Fin 2048) (j : Fin 16) : idx_main_v100 (ix2 b c) j = ix3 b c j :=
  funext fun a => by match a with | ⟨0, _⟩ => rfl | ⟨1, _⟩ => rfl | ⟨2, _⟩ => rfl
theorem i94 (b c : Fin 2048) (u : Fin 1) : idx_main_v94 (ix3 b c u) = ix2 b c :=
  funext fun a => by match a with | ⟨0, _⟩ => rfl | ⟨1, _⟩ => rfl
theorem i101 (b c : Fin 2048) (u : Fin 1) : idx_main_v101 (ix3 b c u) = ix2 b c :=
  funext fun a => by match a with | ⟨0, _⟩ => rfl | ⟨1, _⟩ => rfl
theorem i97 (b c : Fin 2048) (o : Fin 16) : idx_main_v97 (ix3 b c o) = ix3 b c (0 : Fin 1) :=
  funext fun a => by match a with | ⟨0, _⟩ => rfl | ⟨1, _⟩ => rfl | ⟨2, _⟩ => rfl
theorem i104 (b c : Fin 2048) (o : Fin 16) : idx_main_v104 (ix3 b c o) = ix3 b c (0 : Fin 1) :=
  funext fun a => by match a with | ⟨0, _⟩ => rfl | ⟨1, _⟩ => rfl | ⟨2, _⟩ => rfl
theorem i109 (b c : Fin 2048) (o : Fin 16) : idx_main_v109 (ix3 b c o) = ix3 b c (0 : Fin 1) :=
  funext fun a => by match a with | ⟨0, _⟩ => rfl | ⟨1, _⟩ => rfl | ⟨2, _⟩ => rfl

/-- Layer 4 of the reference, row by row: the entries (b, c, ·) of its result are the layer function of the row
    (b, c, ·) of its input. -/
theorem layer4 (x0 : (⟨S2048x16x2048, .f32⟩ : BufTy).Contents (Elt Ideal)) (x1 : (⟨S2048x16x2048, .f32⟩ : BufTy).Contents (Elt Ideal)) (x2 : (⟨S11x16, .f32⟩ : BufTy).Contents (Elt Ideal)) (x3 : (⟨S11, .f32⟩ : BufTy).Contents (Elt Ideal)) (x4 : (⟨S11, .f32⟩ : BufTy).Contents (Elt Ideal)) (x5 : (⟨S11, .f32⟩ : BufTy).Contents (Elt Ideal)) (x6 : (⟨S6x11, .f32⟩ : BufTy).Contents (Elt Ideal)) (x7 : (⟨S6, .f32⟩ : BufTy).Contents (Elt Ideal)) (x8 : (⟨S6, .f32⟩ : BufTy).Contents (Elt Ideal)) (x9 : (⟨S6, .f32⟩ : BufTy).Contents (Elt Ideal)) (x10 : (⟨S11x6, .f32⟩ : BufTy).Contents (Elt Ideal)) (x11 : (⟨S11, .f32⟩ : BufTy).Contents (Elt Ideal)) (x12 : (⟨S11, .f32⟩ : BufTy).Contents (Elt Ideal)) (x13 : (⟨S11, .f32⟩ : BufTy).Contents (Elt Ideal)) (x14 : (⟨S16x11, .f32⟩ : BufTy).Contents (Elt Ideal)) (x15 : (⟨S16, .f32⟩ : BufTy).Contents (Elt Ideal)) (x16 : (⟨S16, .f32⟩ : BufTy).Contents (Elt Ideal)) (x17 : (⟨S16, .f32⟩ : BufTy).Contents (Elt Ideal)) (b c : Fin 2048) :
    (fun o : Fin 16 => val_main_v117 (F := Ideal) x0 x1 x2 x3 x4 x5 x6 x7 x8 x9 x10 x11 x12 x13 x14 x15 x16 x17 (ix3 b c o))
      = RowNet.layer RowNet.c16 RowNet.ceps RowNet.czero (fun o j => x14 (ix2 o j)) (fun o => x15 (ix1 o)) (fun o => x16 (ix1 o))
          (fun o => x17 (ix1 o)) (fun j => val_main_v88 (F := Ideal) x0 x1 x2 x3 x4 x5 x6 x7 x8 x9 x10 x11 x12 x13 (ix3 b c j)) := by
  funext o
  unfold RowNet.layer RowNet.norm RowNet.lin
  simp only [val_main_v117_apply, val_main_v116_apply, val_main_v115_apply, val_main_v114_apply, val_main_v113_apply, val_main_v112_apply, val_main_v111_apply, val_main_v110_apply, val_main_v109_apply, val_main_v108_apply, val_main_v107_apply, val_main_v106_apply, val_main_v105_apply, val_main_v104_apply, val_main_v103_apply, val_main_v102_apply, val_main_v101_apply, val_main_v100_apply, val_main_v99_apply, val_main_v98_apply, val_main_v97_apply, val_main_v96_apply, val_main_v95_apply, val_main_v94_apply, val_main_v93_apply, val_main_v92_apply, val_main_v91_apply, val_main_v90_apply, val_main_v89_apply, val_main_cst_14_apply, val_main_cst_15_apply, val_main_cst_16_apply, val_main_cst_17_apply, val_main_cst_18_apply, val_main_call3_cst_apply, val_main_call3_v0_apply,
    li89, ri89, i90, i111, i114, i91, i112, i115, i93, i100, i94, i101, i97, i104, i109,
    Ideal.addf_def, Ideal.subf_def, Ideal.mulf_def, Ideal.hostDivf_def, Ideal.maximumf_def, Ideal.hostUnary_rsqrt_def, Ideal.ofBits_def,
    RowNet.c11, RowNet.c6, RowNet.c16, RowNet.ceps, RowNet.czero, Ideal.ofBits_zero_f32, zero_add]

/-! ### The whole reference -/

theorem i1 (b c : Fin 2048) (j : Fin 16) : idx_main_v1 (ix3 b c j) = ix3 b j c :=
  funext fun a => by match a with | ⟨0, _⟩ => rfl | ⟨1, _⟩ => rfl | ⟨2, _⟩ => rfl
theorem i118 (b : Fin 2048) (s : Fin 16) (c : Fin 2048) : idx_main_v118 (ix3 b s c) = ix3 b c s :=
  funext fun a => by match a with | ⟨0, _⟩ => rfl | ⟨1, _⟩ => rfl | ⟨2, _⟩ => rfl

/-- The reference's result array is the one whole-array function of its arguments. -/
theorem value (x0 : (⟨S2048x16x2048, .f32⟩ : BufTy).Contents (Elt Ideal)) (x1 : (⟨S2048x16x2048, .f32⟩ : BufTy).Contents (Elt Ideal)) (x2 : (⟨S11x16, .f32⟩ : BufTy).Contents (Elt Ideal)) (x3 : (⟨S11, .f32⟩ : BufTy).Contents (Elt Ideal)) (x4 : (⟨S11, .f32⟩ : BufTy).Contents (Elt Ideal)) (x5 : (⟨S11, .f32⟩ : BufTy).Contents (Elt Ideal)) (x6 : (⟨S6x11, .f32⟩ : BufTy).Contents (Elt Ideal)) (x7 : (⟨S6, .f32⟩ : BufTy).Contents (Elt Ideal)) (x8 : (⟨S6, .f32⟩ : BufTy).Contents (Elt Ideal)) (x9 : (⟨S6, .f32⟩ : BufTy).Contents (Elt Ideal)) (x10 : (⟨S11x6, .f32⟩ : BufTy).Contents (Elt Ideal)) (x11 : (⟨S11, .f32⟩ : BufTy).Contents (Elt Ideal)) (x12 : (⟨S11, .f32⟩ : BufTy).Contents (Elt Ideal)) (x13 : (⟨S11, .f32⟩ : BufTy).Contents (Elt Ideal)) (x14 : (⟨S16x11, .f32⟩ : BufTy).Contents (Elt Ideal)) (x15 : (⟨S16, .f32⟩ : BufTy).Contents (Elt Ideal)) (x16 : (⟨S16, .f32⟩ : BufTy).Contents (Elt Ideal)) (x17 : (⟨S16, .f32⟩ : BufTy).Contents (Elt Ideal)) :
    val_main_v118 (F := Ideal) x0 x1 x2 x3 x4 x5 x6 x7 x8 x9 x10 x11 x12 x13 x14 x15 x16 x17 = RowNet.outArr x0 x1 x2 x3 x4 x5 x6 x7 x8 x9 x10 x11 x12 x13 x14 x15 x16 x17 := by
  funext i
  obtain ⟨b, s, c, rfl⟩ : ∃ (b : Fin 2048) (s : Fin 16) (c : Fin 2048), i = ix3 b s c := ⟨i 0, i 1, i 2, eq_ix3 i⟩
  rw [val_main_v118_apply, i118, RowNet.outArr_ix3]
  unfold RowNet.net
  have h0 : (fun j : Fin 16 => val_main_v1 (F := Ideal) x0 x1 (ix3 b c j)) = (fun j => x0 (ix3 b j c) + x1 (ix3 b j c) : Fin 16 → EReal) :=
    funext fun j => by rw [val_main_v1_apply, i1, val_main_v0_apply]; rfl
  have h1 := layer1 x0 x1 x2 x3 x4 x5 b c
  have h2 := layer2 x0 x1 x2 x3 x4 x5 x6 x7 x8 x9 b c
  have h3 := layer3 x0 x1 x2 x3 x4 x5 x6 x7 x8 x9 x10 x11 x12 x13 b c
  have h4 := layer4 x0 x1 x2 x3 x4 x5 x6 x7 x8 x9 x10 x11 x12 x13 x14 x15 x16 x17 b c
  rw [h0] at h1
  rw [h1] at h2
  rw [h2] at h3
  rw [h3] at h4
  exact congrFun h4 s

end Cert.ReferenceIdeal.Rows

end
-- ==== Proof.lean ====
/-
  The kernel and its reference compute the same function on the extended reals.

  Both programs add the two large inputs [2048, 16, 2048], read the sequence axis (length 16) of every (batch,
  channel) position as a row, and push the row through four layers of widths 16 → 11 → 6 → 11 → 16; a layer is an
  affine map, a normalisation of the row by its own mean and variance (sums divided by the width, a small
  constant added under the reciprocal square root), a scale and a shift, and the positive part. The kernel does
  this block by block (an 8 × 8 grid of blocks of 256 batches × 256 channels, rows flattened to a 65536-row
  matrix for the products); the reference does it on the whole arrays with a contraction and keepdims sums. No
  algebraic law beyond reading each sum as a sum over the last axis is needed: entry by entry the two sides are
  the same expression in the same constants (RowNet.net), so finiteness of the inputs is never used.

  Proof/LibRowNet.lean has the row functions and the generic reading of one layer of the vector program;
  Proof/Net.lean the network and the whole-array function RowNet.outArr; Proof/KernelMatmul.lean, Proof/KernelRows.lean
  and Proof/KernelArray.lean read the kernel (its body at an entry, then the blocks tiling the output);
  Proof/RefRows.lean reads the reference. The three frames are the programs' runs with the values dropped;
  the idealization rewrote nothing, so there is nothing to preserve.
-/
import proofs.«126905_j57784490000583_1_alg».proof.Defs
import proofs.«126905_j57784490000583_1_alg».proof.Proof.Gen.Kernel
import proofs.«126905_j57784490000583_1_alg».proof.Proof.Gen.Kernel.Skeleton
import proofs.«126905_j57784490000583_1_alg».proof.Proof.Gen.Kernel.Launch
import proofs.«126905_j57784490000583_1_alg».proof.Proof.Gen.Kernel.Points
import proofs.«126905_j57784490000583_1_alg».proof.Proof.Gen.Kernel.Frame
import proofs.«126905_j57784490000583_1_alg».proof.Proof.Gen.KernelIdeal
import proofs.«126905_j57784490000583_1_alg».proof.Proof.Gen.KernelIdeal.Skeleton
import proofs.«126905_j57784490000583_1_alg».proof.Proof.Gen.KernelIdeal.Launch
import proofs.«126905_j57784490000583_1_alg».proof.Proof.Gen.KernelIdeal.Points
import proofs.«126905_j57784490000583_1_alg».proof.Proof.Gen.KernelIdeal.Frame
import proofs.«126905_j57784490000583_1_alg».proof.Proof.Gen.KernelIdeal.Value
import proofs.«126905_j57784490000583_1_alg».proof.Proof.Gen.ReferenceIdeal
import proofs.«126905_j57784490000583_1_alg».proof.Proof.Gen.Pre_finite_inputs
import proofs.«126905_j57784490000583_1_alg».proof.Proof.KernelArray
import proofs.«126905_j57784490000583_1_alg».proof.Proof.RefRows
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments, the idealized kernel ends with its output at the whole-array
    function of its arguments, and the reference with its result at the same function of the same arrays. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11, a12, a13, a14, a15, a16, a17⟩ := hagree c
  rw [Cert.ReferenceIdeal.ReadP.val_main_v118_eq, Cert.ReferenceIdeal.Rows.value, a0, a1, a2, a3, a4, a5, a6, a7, a8, a9, a10, a11, a12, a13, a14, a15, a16, a17]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
